-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62_1)) (v1 : (c : Dev Cert.KernelIdeal.nD) → Buf (Elt Ideal) ((c.tc : Thread Cert.KernelIdeal.nD Cert.KernelIdeal.τ).loc Cert.KernelIdeal.main_v62_0)) (v2 : (c : Dev Cert.KernelIdeal.nD) → Buf (Elt Ideal) ((c.tc : Thread Cert.KernelIdeal.nD Cert.KernelIdeal.τ).loc Cert.KernelIdeal.main_v84)) (v3 : (c : Dev Cert.KernelIdeal.nD) → Buf (Elt Ideal) ((c.tc : Thread Cert.KernelIdeal.nD Cert.KernelIdeal.τ).loc Cert.KernelIdeal.main_v87)) (v4 : (c : Dev Cert.KernelIdeal.nD) → Buf (Elt Ideal) ((c.tc : Thread Cert.KernelIdeal.nD Cert.KernelIdeal.τ).loc Cert.KernelIdeal.main_v62_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_1) = v0 c
          ∧ r.2.mem ((c.tc : Thread Cert.KernelIdeal.nD Cert.KernelIdeal.τ).loc Cert.KernelIdeal.main_v62_0) = v1 c
          ∧ r.2.mem ((c.tc : Thread Cert.KernelIdeal.nD Cert.KernelIdeal.τ).loc Cert.KernelIdeal.main_v84) = v2 c
          ∧ r.2.mem ((c.tc : Thread Cert.KernelIdeal.nD Cert.KernelIdeal.τ).loc Cert.KernelIdeal.main_v87) = v3 c
          ∧ r.2.mem ((c.tc : Thread Cert.KernelIdeal.nD Cert.KernelIdeal.τ).loc Cert.KernelIdeal.main_v62_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_v139) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x256 .f32) (main_arg1 : IVec S2x1600000 32) (main_arg2 : FVec F S1600000 .f32) (main_arg3 : FVec F S256x64 .f32) (main_arg4 : FVec F S64 .f32) (main_arg5 : FVec F S64x40 .f32) (main_arg6 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x256 : Shape := ⟨2, ![50000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S5000x256 : Shape := ⟨2, ![5000, 256]⟩
abbrev S5000x64 : Shape := ⟨2, ![5000, 64]⟩
abbrev S1650000x64 : Shape := ⟨2, ![1650000, 64]⟩
abbrev S1x64 : Shape := ⟨2, ![1, 64]⟩
abbrev S50000x40 : Shape := ⟨2, ![50000, 40]⟩
abbrev S5000x40 : Shape := ⟨2, ![5000, 40]⟩
abbrev S1650000x40 : Shape := ⟨2, ![1650000, 40]⟩
abbrev S1x40 : Shape := ⟨2, ![1, 40]⟩
abbrev S50000x1 : Shape := ⟨2, ![50000, 1]⟩
abbrev S2000x40 : Shape := ⟨2, ![2000, 40]⟩
abbrev S2000x1 : Shape := ⟨2, ![2000, 1]⟩
abbrev S2000 : Shape := ⟨1, ![2000]⟩
abbrev S1600000x1 : Shape := ⟨2, ![1600000, 1]⟩
abbrev S1600000x40 : Shape := ⟨2, ![1600000, 40]⟩

abbrev nBuf : Space → Nat
  | .hbm => 126
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S50000, .i32⟩
  | .hbm, ⟨12, _⟩ => ⟨S1650000, .i32⟩
  | .hbm, ⟨13, _⟩ => ⟨S1650000, .i32⟩
  | .hbm, ⟨14, _⟩ => ⟨S_, .f32⟩
  | .hbm, ⟨15, _⟩ => ⟨S1650000, .f32⟩
  | .hbm, ⟨16, _⟩ => ⟨S_, .f32⟩
  | .hbm, ⟨17, _⟩ => ⟨S50000, .f32⟩
  | .hbm, ⟨18, _⟩ => ⟨S1650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S50000x64, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x64, .f32⟩
  | .hbm, ⟨60, _⟩ => ⟨S1650000x1, .f32⟩
  | .hbm, ⟨61, _⟩ => ⟨S1650000x64, .f32⟩
  | .hbm, ⟨62, _⟩ => ⟨S1650000x64, .f32⟩
  | .hbm, ⟨63, _⟩ => ⟨S_, .f32⟩
  | .hbm, ⟨64, _⟩ => ⟨S50000x64, .f32⟩
  | .hbm, ⟨65, _⟩ => ⟨S1650000x1, .i32⟩
  | .hbm, ⟨66, _⟩ => ⟨S50000x64, .f32⟩
  | .hbm, ⟨67, _⟩ => ⟨S1x64, .f32⟩
  | .hbm, ⟨68, _⟩ => ⟨S50000x40, .f32⟩
  | .hbm, ⟨69, _⟩ => ⟨S_, .i32⟩
  | .hbm, ⟨70, _⟩ => ⟨S1650000, .i32⟩
  | .hbm, ⟨71, _⟩ => ⟨S1650000, .i1⟩
  | .hbm, ⟨72, _⟩ => ⟨S_, .i32⟩
  | .hbm, ⟨73, _⟩ => ⟨S1650000, .i32⟩
  | .hbm, ⟨74, _⟩ => ⟨S1650000, .i32⟩
  | .hbm, ⟨75, _⟩ => ⟨S1650000, .i32⟩
  | .hbm, ⟨76, _⟩ => ⟨S1650000x1, .i32⟩
  | .hbm, ⟨77, _⟩ => ⟨S1650000x40, .f32⟩
  | .hbm, ⟨78, _⟩ => ⟨S1650000x1, .f32⟩
  | .hbm, ⟨79, _⟩ => ⟨S1650000x40, .f32⟩
  | .hbm, ⟨80, _⟩ => ⟨S1650000x40, .f32⟩
  | .hbm, ⟨81, _⟩ => ⟨S_, .f32⟩
  | .hbm, ⟨82, _⟩ => ⟨S50000x40, .f32⟩
  | .hbm, ⟨83, _⟩ => ⟨S1650000x1, .i32⟩
  | .hbm, ⟨84, _⟩ => ⟨S50000x40, .f32⟩
  | .hbm, ⟨85, _⟩ => ⟨S1x40, .f32⟩
  | .hbm, ⟨86, _⟩ => ⟨S50000x40, .f32⟩
  | .hbm, ⟨87, _⟩ => ⟨S50000x40, .f32⟩
  | .hbm, ⟨88, _⟩ => ⟨S50000x40, .f32⟩
  | .hbm, ⟨89, _⟩ => ⟨S50000x1, .f32⟩
  | .hbm, ⟨90, _⟩ => ⟨S50000, .f32⟩
  | .hbm, ⟨91, _⟩ => ⟨S50000x1, .f32⟩
  | .hbm, ⟨92, _⟩ => ⟨S50000x40, .f32⟩
  | .hbm, ⟨93, _⟩ => ⟨S50000x40, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x40, .f32⟩
  | .hbm, ⟨103, _⟩ => ⟨S_, .i32⟩
  | .hbm, ⟨104, _⟩ => ⟨S1600000, .i32⟩
  | .hbm, ⟨105, _⟩ => ⟨S1600000, .i1⟩
  | .hbm, ⟨106, _⟩ => ⟨S_, .i32⟩
  | .hbm, ⟨107, _⟩ => ⟨S1600000, .i32⟩
  | .hbm, ⟨108, _⟩ => ⟨S1600000, .i32⟩
  | .hbm, ⟨109, _⟩ => ⟨S1600000, .i32⟩
  | .hbm, ⟨110, _⟩ => ⟨S1600000x1, .i32⟩
  | .hbm, ⟨111, _⟩ => ⟨S1600000x40, .f32⟩
  | .hbm, ⟨112, _⟩ => ⟨S1600000x40, .f32⟩
  | .hbm, ⟨113, _⟩ => ⟨S_, .f32⟩
  | .hbm, ⟨114, _⟩ => ⟨S1600000, .f32⟩
  | .hbm, ⟨115, _⟩ => ⟨S_, .f32⟩
  | .hbm, ⟨116, _⟩ => ⟨S1600000, .f32⟩
  | .hbm, ⟨117, _⟩ => ⟨S1600000, .f32⟩
  | .hbm, ⟨118, _⟩ => ⟨S_, .f32⟩
  | .hbm, ⟨119, _⟩ => ⟨S1600000, .f32⟩
  | .hbm, ⟨120, _⟩ => ⟨S1600000, .i1⟩
  | .hbm, ⟨121, _⟩ => ⟨S_, .f32⟩
  | .hbm, ⟨122, _⟩ => ⟨S_, .f32⟩
  | .hbm, ⟨123, _⟩ => ⟨S1600000, .f32⟩
  | .hbm, ⟨124, _⟩ => ⟨S1600000, .f32⟩
  | .hbm, ⟨125, _⟩ => ⟨S1600000, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x40, .f32⟩
  | .local _ .vmem, ⟨9, _⟩ => ⟨S5000x40, .f32⟩
  | .local _ .vmem, ⟨10, _⟩ => ⟨S5000x40, .f32⟩
  | .local _ .vmem, ⟨11, _⟩ => ⟨S2000x40, .f32⟩
  | .local _ .vmem, ⟨12, _⟩ => ⟨S2000x40, .f32⟩
  | .local _ .vmem, ⟨13, _⟩ => ⟨S1x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S2000x40, .f32⟩
  | .local _ .vmem, ⟨18, _⟩ => ⟨S2000x40, .f32⟩
  | .local _ .vmem, ⟨19, _⟩ => ⟨S2000x40, .f32⟩
  | .local _ .vmem, ⟨20, _⟩ => ⟨S2000x1, .f32⟩
  | .local _ .vmem, ⟨21, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62_0 : Ref sig .tc := ⟨.hbm, 86, rfl⟩
abbrev main_v62_1 : Ref sig .tc := ⟨.hbm, 87, rfl⟩
abbrev main_v62_2 : Ref sig .tc := ⟨.hbm, 88, rfl⟩
abbrev main_v62_3 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_c_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_17 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_cst_20 : Ref sig .tc := ⟨.hbm, 121, rfl⟩
abbrev main_cst_21 : Ref sig .tc := ⟨.hbm, 122, rfl⟩
abbrev main_call1_v0 : Ref sig .tc := ⟨.hbm, 123, rfl⟩
abbrev main_call1_v1 : Ref sig .tc := ⟨.hbm, 124, rfl⟩
abbrev main_v87 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  shapeCasts_S40_S1x40 : S40.ShapeCasts S1x40
  inb_S2000x40_S2000x40_0_0 : ∀ a, (![0, 0] : Fin 2 → Nat) a + S2000x40.size a ≤ S2000x40.size a
  h_S2000x40 : 0 < S2000x40.numel
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x40_S1600000_d1 : S1600000x40.ReducesTo [1] S1600000
  h_S_ : 0 < S_.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x256_S256x64_S5000x64_1_0_0_1_n_n_wf : DotDims.WF S5000x256 S256x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x40_S5000x40_1_0_0_1_n_n_wf : DotDims.WF S5000x64 S64x40 S5000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1
  gather_S50000x40_S1600000x1_S1600000x40_1_0_n_n_0_1_140_wf : GatherDims.WF S50000x40 S1600000x1 S1600000x40 [1] [0] [] [0] [] 1 ![1, 40]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S50000x40.size a
  hwx1_3 : ∀ i : grid1.Coords, EltTy.bits .f32 = 32 ∨ (Rect.block (s := S50000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S50000x40.size a
  hwx2_0 : ∀ i : grid2.Coords, EltTy.bits .f32 = 32 ∨ (Rect.block (s := S50000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S50000x40.size a
  hwx2_3 : ∀ i : grid2.Coords, EltTy.bits .f32 = 32 ∨ (Rect.block (s := S50000x40) S2000x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x40.size a ≤ S50000x40.size a
  hwx2_4 : ∀ i : grid2.Coords, EltTy.bits .f32 = 32 ∨ (Rect.block (s := S50000x40) S2000x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S50000x1.size a
  hwx2_5 : ∀ i : grid2.Coords, EltTy.bits .f32 = 32 ∨ (Rect.block (s := S50000x1) S2000x1.size (cc2_transform_5 i) (hinb2_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62_0) S2000x40.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62_1) S2000x40.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v62_2) S2000x40.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v62_3) S2000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S50000x64 : Shape := ⟨2, ![50000, 64]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1x64 : Shape := ⟨2, ![1, 64]⟩
abbrev S50000x40 : Shape := ⟨2, ![50000, 40]⟩
abbrev S1650000x40 : Shape := ⟨2, ![1650000, 40]⟩
abbrev S1x40 : Shape := ⟨2, ![1, 40]⟩
abbrev S1600000x1 : Shape := ⟨2, ![1600000, 1]⟩
abbrev S1600000x40 : Shape := ⟨2, ![1600000, 40]⟩
abbrev S50000x1 : Shape := ⟨2, ![50000, 1]⟩

abbrev nBuf : Space → Nat
  | .hbm => 209
  | .vmem => 0
  | .smem => 0
  | _ => 0

abbrev hbmTy0_0 (i : Nat) : BufTy := match i % 128 with
  | 0 => ⟨S50000x256, .f32⟩
  | 1 => ⟨S2x1600000, .i32⟩
  | 2 => ⟨S1600000, .f32⟩
  | 3 => ⟨S256x64, .f32⟩
  | 4 => ⟨S64, .f32⟩
  | 5 => ⟨S64x40, .f32⟩
  | 6 => ⟨S40, .f32⟩
  | 7 => ⟨S1x1600000, .i32⟩
  | 8 => ⟨S1600000, .i32⟩
  | 9 => ⟨S1x1600000, .i32⟩
  | 10 => ⟨S1600000, .i32⟩
  | 11 => ⟨S50000x64, .f32⟩
  | 12 => ⟨S50000, .i32⟩
  | 13 => ⟨S1650000, .i32⟩
  | 14 => ⟨S1650000, .i32⟩
  | 15 => ⟨S_, .f32⟩
  | 16 => ⟨S1650000, .f32⟩
  | 17 => ⟨S_, .f32⟩
  | 18 => ⟨S50000, .f32⟩
  | 19 => ⟨S1650000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S_, .i32⟩
  | 52 => ⟨S1650000, .i32⟩
  | 53 => ⟨S1650000, .i1⟩
  | 54 => ⟨S_, .i32⟩
  | 55 => ⟨S1650000, .i32⟩
  | 56 => ⟨S1650000, .i32⟩
  | 57 => ⟨S1650000, .i32⟩
  | 58 => ⟨S1650000x1, .i32⟩
  | 59 => ⟨S1650000x64, .f32⟩
  | 60 => ⟨S1650000x1, .f32⟩
  | 61 => ⟨S1650000x64, .f32⟩
  | 62 => ⟨S1650000x64, .f32⟩
  | 63 => ⟨S_, .f32⟩
  | 64 => ⟨S50000x64, .f32⟩
  | 65 => ⟨S1650000x1, .i32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S50000x40, .f32⟩
  | 74 => ⟨S50000, .i32⟩
  | 75 => ⟨S1650000, .i32⟩
  | 76 => ⟨S1650000, .i32⟩
  | 77 => ⟨S_, .f32⟩
  | 78 => ⟨S1650000, .f32⟩
  | 79 => ⟨S_, .f32⟩
  | 80 => ⟨S50000, .f32⟩
  | 81 => ⟨S1650000x1, .i32⟩
  | 82 => ⟨S50000, .f32⟩
  | 83 => ⟨S_, .f32⟩
  | 84 => ⟨S50000, .f32⟩
  | 85 => ⟨S50000, .i1⟩
  | 86 => ⟨S_, .f32⟩
  | 87 => ⟨S50000, .f32⟩
  | 88 => ⟨S50000, .f32⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S1650000, .i32⟩
  | 96 => ⟨S1650000, .i1⟩
  | 97 => ⟨S_, .i32⟩
  | 98 => ⟨S1650000, .i32⟩
  | 99 => ⟨S1650000, .i32⟩
  | 100 => ⟨S1650000, .i32⟩
  | 101 => ⟨S1650000x1, .i32⟩
  | 102 => ⟨S1650000, .f32⟩
  | 103 => ⟨S_, .i32⟩
  | 104 => ⟨S1650000, .i32⟩
  | 105 => ⟨S1650000, .i1⟩
  | 106 => ⟨S_, .i32⟩
  | 107 => ⟨S1650000, .i32⟩
  | 108 => ⟨S1650000, .i32⟩
  | 109 => ⟨S1650000, .i32⟩
  | 110 => ⟨S1650000x1, .i32⟩
  | 111 => ⟨S1650000, .f32⟩
  | 112 => ⟨S1650000, .f32⟩
  | 113 => ⟨S_, .i32⟩
  | 114 => ⟨S1650000, .i32⟩
  | 115 => ⟨S1650000, .i1⟩
  | 116 => ⟨S_, .i32⟩
  | 117 => ⟨S1650000, .i32⟩
  | 118 => ⟨S1650000, .i32⟩
  | 119 => ⟨S1650000, .i32⟩
  | 120 => ⟨S1650000x1, .i32⟩
  | 121 => ⟨S1650000x40, .f32⟩
  | 122 => ⟨S1650000x1, .f32⟩
  | 123 => ⟨S1650000x40, .f32⟩
  | 124 => ⟨S1650000x40, .f32⟩
  | 125 => ⟨S_, .f32⟩
  | 126 => ⟨S50000x40, .f32⟩
  | 127 => ⟨S1650000x1, .i32⟩
  | _ => ⟨S50000x256, .f32⟩

abbrev hbmTy0_1 (i : Nat) : BufTy := match i % 128 with
  | 0 => ⟨S50000x40, .f32⟩
  | 1 => ⟨S1x40, .f32⟩
  | 2 => ⟨S50000x40, .f32⟩
  | 3 => ⟨S50000x40, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x40, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x40, .f32⟩
  | 22 => ⟨S1600000x40, .f32⟩
  | 23 => ⟨S_, .f32⟩
  | 24 => ⟨S1600000, .f32⟩
  | 25 => ⟨S1600000, .f32⟩
  | 26 => ⟨S_, .f32⟩
  | 27 => ⟨S1600000, .f32⟩
  | 28 => ⟨S1600000, .f32⟩
  | 29 => ⟨S1600000x40, .f32⟩
  | 30 => ⟨S_, .f32⟩
  | 31 => ⟨S1600000, .f32⟩
  | 32 => ⟨S1600000, .f32⟩
  | 33 => ⟨S_, .f32⟩
  | 34 => ⟨S1600000, .f32⟩
  | 35 => ⟨S1600000, .f32⟩
  | 36 => ⟨S1600000x40, .f32⟩
  | 37 => ⟨S_, .f32⟩
  | 38 => ⟨S1600000, .f32⟩
  | 39 => ⟨S1600000, .f32⟩
  | 40 => ⟨S1600000, .f32⟩
  | 41 => ⟨S_, .f32⟩
  | 42 => ⟨S1600000, .f32⟩
  | 43 => ⟨S1600000, .f32⟩
  | 44 => ⟨S_, .f32⟩
  | 45 => ⟨S1600000, .f32⟩
  | 46 => ⟨S1600000, .i1⟩
  | 47 => ⟨S_, .f32⟩
  | 48 => ⟨S_, .f32⟩
  | 49 => ⟨S1600000, .f32⟩
  | 50 => ⟨S1600000, .f32⟩
  | 51 => ⟨S1600000, .f32⟩
  | 52 => ⟨S_, .f32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x40, .f32⟩
  | 59 => ⟨S50000x40, .f32⟩
  | 60 => ⟨S50000x40, .f32⟩
  | 61 => ⟨S_, .f32⟩
  | 62 => ⟨S50000, .f32⟩
  | 63 => ⟨S50000x1, .f32⟩
  | 64 => ⟨S50000x1, .f32⟩
  | 65 => ⟨S50000x40, .f32⟩
  | 66 => ⟨S50000x40, .f32⟩
  | 67 => ⟨S_, .f32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x40, .f32⟩
  | 74 => ⟨S50000x40, .f32⟩
  | 75 => ⟨S50000x40, .f32⟩
  | 76 => ⟨S_, .f32⟩
  | 77 => ⟨S50000, .f32⟩
  | 78 => ⟨S50000x1, .f32⟩
  | 79 => ⟨S50000x40, .f32⟩
  | 80 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_19 : Ref sig .tc := ⟨.hbm, 113, rfl⟩
abbrev main_v79 : Ref sig .tc := ⟨.hbm, 114, rfl⟩
abbrev main_v80 : Ref sig .tc := ⟨.hbm, 115, rfl⟩
abbrev main_c_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_21 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_22 : Ref sig .tc := ⟨.hbm, 132, rfl⟩
abbrev main_v95 : Ref sig .tc := ⟨.hbm, 133, rfl⟩
abbrev main_v96 : Ref sig .tc := ⟨.hbm, 134, rfl⟩
abbrev main_c_23 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_24 : Ref sig .tc := ⟨.hbm, 141, rfl⟩
abbrev main_v102 : Ref sig .tc := ⟨.hbm, 142, rfl⟩
abbrev main_v103 : Ref sig .tc := ⟨.hbm, 143, rfl⟩
abbrev main_c_25 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_26 : Ref sig .tc := ⟨.hbm, 151, rfl⟩
abbrev main_v110 : Ref sig .tc := ⟨.hbm, 152, rfl⟩
abbrev main_v111 : Ref sig .tc := ⟨.hbm, 153, rfl⟩
abbrev main_cst_27 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_28 : Ref sig .tc := ⟨.hbm, 158, rfl⟩
abbrev main_v115 : Ref sig .tc := ⟨.hbm, 159, rfl⟩
abbrev main_v116 : Ref sig .tc := ⟨.hbm, 160, rfl⟩
abbrev main_cst_29 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_30 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_31 : Ref sig .tc := ⟨.hbm, 169, rfl⟩
abbrev main_v123 : Ref sig .tc := ⟨.hbm, 170, rfl⟩
abbrev main_v124 : Ref sig .tc := ⟨.hbm, 171, rfl⟩
abbrev main_cst_32 : Ref sig .tc := ⟨.hbm, 172, rfl⟩
abbrev main_v125 : Ref sig .tc := ⟨.hbm, 173, rfl⟩
abbrev main_v126 : Ref sig .tc := ⟨.hbm, 174, rfl⟩
abbrev main_cst_33 : Ref sig .tc := ⟨.hbm, 175, rfl⟩
abbrev main_cst_34 : Ref sig .tc := ⟨.hbm, 176, rfl⟩
abbrev main_call3_v0 : Ref sig .tc := ⟨.hbm, 177, rfl⟩
abbrev main_call3_v1 : Ref sig .tc := ⟨.hbm, 178, rfl⟩
abbrev main_v127 : Ref sig .tc := ⟨.hbm, 179, rfl⟩
abbrev main_call4_cst : Ref sig .tc := ⟨.hbm, 180, rfl⟩
abbrev main_call4_v0 : Ref sig .tc := ⟨.hbm, 181, rfl⟩
abbrev main_call4_cst_0 : Ref sig .tc := ⟨.hbm, 182, rfl⟩
abbrev main_call4_v1 : Ref sig .tc := ⟨.hbm, 183, rfl⟩
abbrev main_call4_v2 : Ref sig .tc := ⟨.hbm, 184, rfl⟩
abbrev main_call4_v3 : Ref sig .tc := ⟨.hbm, 185, rfl⟩
abbrev main_call4_v4 : Ref sig .tc := ⟨.hbm, 186, rfl⟩
abbrev main_call4_v5 : Ref sig .tc := ⟨.hbm, 187, rfl⟩
abbrev main_call4_v6 : Ref sig .tc := ⟨.hbm, 188, rfl⟩
abbrev main_call4_cst_1 : Ref sig .tc := ⟨.hbm, 189, rfl⟩
abbrev main_call4_v7 : Ref sig .tc := ⟨.hbm, 190, rfl⟩
abbrev main_call4_v8 : Ref sig .tc := ⟨.hbm, 191, rfl⟩
abbrev main_call4_v9 : Ref sig .tc := ⟨.hbm, 192, rfl⟩
abbrev main_call4_v10 : Ref sig .tc := ⟨.hbm, 193, rfl⟩
abbrev main_v128 : Ref sig .tc := ⟨.hbm, 194, rfl⟩
abbrev main_cst_35 : Ref sig .tc := ⟨.hbm, 195, rfl⟩
abbrev main_v129 : Ref sig .tc := ⟨.hbm, 196, rfl⟩
abbrev main_cst_36 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_cst_37 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x40_S1600000_d1 : S1600000x40.ReducesTo [1] S1600000
  h_S_ : 0 < S_.numel
  reducesTo_S50000x40_S50000_d1 : S50000x40.ReducesTo [1] S50000
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x256_S256x64_S50000x64_1_0_0_1_n_n_wf : DotDims.WF S50000x256 S256x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x40_S50000x40_1_0_0_1_n_n_wf : DotDims.WF S50000x64 S64x40 S50000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1
  gather_S50000x40_S1600000x1_S1600000x40_1_0_n_n_0_1_140_wf : GatherDims.WF S50000x40 S1600000x1 S1600000x40 [1] [0] [] [0] [] 1 ![1, 40]

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf

class Facts : Prop extends Facts₀ where

variable [Facts]
-- ==== Proof.KRun.lean ====
/-
  The idealized kernel's run with its five results named.  @main is three pipelined regions among stretches of
  host operations; after the last stretch every unscoped buffer holds the fold of those segments over the launch
  memory (the generated frame's `Gen.W10`).  Here the launch over the segments is stated once more with the five result
  buffers read off that fold beside the seven unchanged arguments; what the fold holds at each result is opened,
  stretch by stretch and region by region, in the modules that import this one.
-/
import proofs.«142800_j58729382805607_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; each result buffer then holds what the fold of
    the segments holds there, and each argument array what it held at launch. -/
theorem run_named : θ_run defs (onTc (τ := τ) (main (F := F))) ⟨m, fun _ => 0, ρ⟩ (fun r => ∀ c : Dev nD,
      r.2.mem ((c.tc : Thread nD τ).loc main_v62_1) = W10 m ρ c (Proc.devRef .tc main_v62_1)
      ∧       r.2.mem ((c.tc : Thread nD τ).loc main_v62_0) = W10 m ρ c (Proc.devRef .tc main_v62_0)
      ∧       r.2.mem ((c.tc : Thread nD τ).loc main_v84) = W10 m ρ c (Proc.devRef .tc main_v84)
      ∧       r.2.mem ((c.tc : Thread nD τ).loc main_v87) = W10 m ρ c (Proc.devRef .tc main_v87)
      ∧       r.2.mem ((c.tc : Thread nD τ).loc main_v62_2) = W10 m ρ c (Proc.devRef .tc main_v62_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v62_1 (by decide)),
       h c _ (mem_uc main_v62_0 (by decide)),
       h c _ (mem_uc main_v84 (by decide)),
       h c _ (mem_uc main_v87 (by decide)),
       h c _ (mem_uc main_v62_2 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Hand

end
-- ==== Proof.HostPre.lean ====
/-
  The host operations before the first pipelined region, read at the buffers the rest of the program uses.

  From the edge list e = (src, dst) the program builds the extended index arrays s = src ++ (0 … n-1) and
  d = dst ++ (0 … n-1) (each node gets a self loop), the degree deg = Σ over the entries of d of 1, the factor
  dinv = 1/√(max deg 1) where deg > 0 and 0 elsewhere, and the edge weight norm = dinv[s] · dinv[d].  The reference
  computes the same arrays by the same operations; here each of them, as the fold of the kernel program's first
  three stretches of host operations holds it, is identified with the reference's stage of the same name, and the
  argument arrays are carried through unchanged.
-/
import proofs.«142800_j58729382805607_2_alg».proof.Proof.Gen.KernelIdeal.Frame
import proofs.«142800_j58729382805607_2_alg».proof.Proof.RefReadP
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen

/-- A buffer that no operation of a stretch writes holds after the stretch what it held before: every operation's
    result buffer is another reference. -/
macro "kept_through " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## After the first stretch: the index arrays, the degree's comparison and its inverse root -/
theorem w1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl
theorem w1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl
theorem w1_v5 : W1 m ρ c (Proc.devRef .tc main_v5) = Cert.ReferenceIdeal.Read.val_main_v6 (F := Ideal) (m ((c : Thread nD τ).loc main_arg1)) := by
  show StableHlo.after hostOps0 (W0 m ρ c) (Proc.devRef .tc main_v5) = _
  after_results
  rfl
theorem w1_v6 : W1 m ρ c (Proc.devRef .tc main_v6) = Cert.ReferenceIdeal.Read.val_main_v7 (F := Ideal) (m ((c : Thread nD τ).loc main_arg1)) := by
  show StableHlo.after hostOps0 (W0 m ρ c) (Proc.devRef .tc main_v6) = _
  after_results
  rfl
theorem w1_v12 : W1 m ρ c (Proc.devRef .tc main_v12) = Cert.ReferenceIdeal.Read.val_main_v13 (F := Ideal) (m ((c : Thread nD τ).loc main_arg1)) := by
  show StableHlo.after hostOps0 (W0 m ρ c) (Proc.devRef .tc main_v12) = _
  after_results
  rfl
theorem w1_v15 : W1 m ρ c (Proc.devRef .tc main_v15) = Cert.ReferenceIdeal.Read.val_main_v16 (F := Ideal) (m ((c : Thread nD τ).loc main_arg1)) := by
  show StableHlo.after hostOps0 (W0 m ρ c) (Proc.devRef .tc main_v15) = _
  after_results
  rfl
theorem w1_cst_3 : W1 m ρ c (Proc.devRef .tc main_cst_3) = Cert.ReferenceIdeal.Read.val_main_cst_3 (F := Ideal) := by
  show StableHlo.after hostOps0 (W0 m ρ c) (Proc.devRef .tc main_cst_3) = _
  after_results
  rfl
theorem w1_arg0 : W1 m ρ c (Proc.devRef .tc main_arg0) = (m ((c : Thread nD τ).loc main_arg0)) :=
  (by kept_through hostOps0 : W1 m ρ c (Proc.devRef .tc main_arg0) = W0 m ρ c (Proc.devRef .tc main_arg0)).trans (rfl)
theorem w1_arg2 : W1 m ρ c (Proc.devRef .tc main_arg2) = (m ((c : Thread nD τ).loc main_arg2)) :=
  (by kept_through hostOps0 : W1 m ρ c (Proc.devRef .tc main_arg2) = W0 m ρ c (Proc.devRef .tc main_arg2)).trans (rfl)
theorem w1_arg3 : W1 m ρ c (Proc.devRef .tc main_arg3) = (m ((c : Thread nD τ).loc main_arg3)) :=
  (by kept_through hostOps0 : W1 m ρ c (Proc.devRef .tc main_arg3) = W0 m ρ c (Proc.devRef .tc main_arg3)).trans (rfl)
theorem w1_arg4 : W1 m ρ c (Proc.devRef .tc main_arg4) = (m ((c : Thread nD τ).loc main_arg4)) :=
  (by kept_through hostOps0 : W1 m ρ c (Proc.devRef .tc main_arg4) = W0 m ρ c (Proc.devRef .tc main_arg4)).trans (rfl)
theorem w1_arg5 : W1 m ρ c (Proc.devRef .tc main_arg5) = (m ((c : Thread nD τ).loc main_arg5)) :=
  (by kept_through hostOps0 : W1 m ρ c (Proc.devRef .tc main_arg5) = W0 m ρ c (Proc.devRef .tc main_arg5)).trans (rfl)
theorem w1_arg6 : W1 m ρ c (Proc.devRef .tc main_arg6) = (m ((c : Thread nD τ).loc main_arg6)) :=
  (by kept_through hostOps0 : W1 m ρ c (Proc.devRef .tc main_arg6) = W0 m ρ c (Proc.devRef .tc main_arg6)).trans (rfl)

/-! ## After the selection of the inverse root where the degree is positive -/
/-- The selection, over any contents of the three buffers it reads: the called function's operations pass their values
    through typed references, which change nothing. -/
theorem where0_v16 {F : FTy → Type} [FloatOps F] (Wx : Valuation τ sig (Elt F)) :
    StableHlo.after hostOps0_1 Wx (Proc.devRef .tc main_v16)
      = select (Wx (Proc.devRef .tc main_v12)) (Wx (Proc.devRef .tc main_v15))
          (broadcastInDim S50000 ![] bcast_S_S50000 (id (Wx (Proc.devRef .tc main_cst_3)))) := by
  after_results
  rfl
theorem w2_v16 : W2 m ρ c (Proc.devRef .tc main_v16) = Cert.ReferenceIdeal.Read.val_main_v17 (F := Ideal) (m ((c : Thread nD τ).loc main_arg1)) := by
  refine (where0_v16 (W1 m ρ c)).trans ?_
  rw [w1_v12 m ρ c, w1_v15 m ρ c, w1_cst_3 m ρ c]
  rfl
theorem w2_v1 : W2 m ρ c (Proc.devRef .tc main_v1) = Cert.ReferenceIdeal.Read.val_main_v1 (F := Ideal) (m ((c : Thread nD τ).loc main_arg1)) :=
  (by kept_through hostOps0_1 : W2 m ρ c (Proc.devRef .tc main_v1) = W1 m ρ c (Proc.devRef .tc main_v1)).trans (w1_v1 m ρ c)
theorem w2_v3 : W2 m ρ c (Proc.devRef .tc main_v3) = Cert.ReferenceIdeal.Read.val_main_v3 (F := Ideal) (m ((c : Thread nD τ).loc main_arg1)) :=
  (by kept_through hostOps0_1 : W2 m ρ c (Proc.devRef .tc main_v3) = W1 m ρ c (Proc.devRef .tc main_v3)).trans (w1_v3 m ρ c)
theorem w2_v5 : W2 m ρ c (Proc.devRef .tc main_v5) = Cert.ReferenceIdeal.Read.val_main_v6 (F := Ideal) (m ((c : Thread nD τ).loc main_arg1)) :=
  (by kept_through hostOps0_1 : W2 m ρ c (Proc.devRef .tc main_v5) = W1 m ρ c (Proc.devRef .tc main_v5)).trans (w1_v5 m ρ c)
theorem w2_v6 : W2 m ρ c (Proc.devRef .tc main_v6) = Cert.ReferenceIdeal.Read.val_main_v7 (F := Ideal) (m ((c : Thread nD τ).loc main_arg1)) :=
  (by kept_through hostOps0_1 : W2 m ρ c (Proc.devRef .tc main_v6) = W1 m ρ c (Proc.devRef .tc main_v6)).trans (w1_v6 m ρ c)
theorem w2_arg0 : W2 m ρ c (Proc.devRef .tc main_arg0) = (m ((c : Thread nD τ).loc main_arg0)) :=
  (by kept_through hostOps0_1 : W2 m ρ c (Proc.devRef .tc main_arg0) = W1 m ρ c (Proc.devRef .tc main_arg0)).trans (w1_arg0 m ρ c)
theorem w2_arg2 : W2 m ρ c (Proc.devRef .tc main_arg2) = (m ((c : Thread nD τ).loc main_arg2)) :=
  (by kept_through hostOps0_1 : W2 m ρ c (Proc.devRef .tc main_arg2) = W1 m ρ c (Proc.devRef .tc main_arg2)).trans (w1_arg2 m ρ c)
theorem w2_arg3 : W2 m ρ c (Proc.devRef .tc main_arg3) = (m ((c : Thread nD τ).loc main_arg3)) :=
  (by kept_through hostOps0_1 : W2 m ρ c (Proc.devRef .tc main_arg3) = W1 m ρ c (Proc.devRef .tc main_arg3)).trans (w1_arg3 m ρ c)
theorem w2_arg4 : W2 m ρ c (Proc.devRef .tc main_arg4) = (m ((c : Thread nD τ).loc main_arg4)) :=
  (by kept_through hostOps0_1 : W2 m ρ c (Proc.devRef .tc main_arg4) = W1 m ρ c (Proc.devRef .tc main_arg4)).trans (w1_arg4 m ρ c)
theorem w2_arg5 : W2 m ρ c (Proc.devRef .tc main_arg5) = (m ((c : Thread nD τ).loc main_arg5)) :=
  (by kept_through hostOps0_1 : W2 m ρ c (Proc.devRef .tc main_arg5) = W1 m ρ c (Proc.devRef .tc main_arg5)).trans (w1_arg5 m ρ c)
theorem w2_arg6 : W2 m ρ c (Proc.devRef .tc main_arg6) = (m ((c : Thread nD τ).loc main_arg6)) :=
  (by kept_through hostOps0_1 : W2 m ρ c (Proc.devRef .tc main_arg6) = W1 m ρ c (Proc.devRef .tc main_arg6)).trans (w1_arg6 m ρ c)

/-! ## The edge weights: the two gathers of the factor and their product -/
set_option maxHeartbeats 1000000 in
theorem w3_v31 : W3 m ρ c (Proc.devRef .tc main_v31) = Cert.ReferenceIdeal.Read.val_main_v32 (F := Ideal) (m ((c : Thread nD τ).loc main_arg1)) := by
  show StableHlo.after hostOps0_2 (W2 m ρ c) (Proc.devRef .tc main_v31) = _
  have h16 := w2_v16 m ρ c
  have h5 := w2_v5 m ρ c
  have h6 := w2_v6 m ρ c
  generalize W2 m ρ c = Wx at h16 h5 h6 ⊢
  after_results
  rw [h16, h5, h6]
  rfl
theorem w3_v1 : W3 m ρ c (Proc.devRef .tc main_v1) = Cert.ReferenceIdeal.Read.val_main_v1 (F := Ideal) (m ((c : Thread nD τ).loc main_arg1)) :=
  (by kept_through hostOps0_2 : W3 m ρ c (Proc.devRef .tc main_v1) = W2 m ρ c (Proc.devRef .tc main_v1)).trans (w2_v1 m ρ c)
theorem w3_v3 : W3 m ρ c (Proc.devRef .tc main_v3) = Cert.ReferenceIdeal.Read.val_main_v3 (F := Ideal) (m ((c : Thread nD τ).loc main_arg1)) :=
  (by kept_through hostOps0_2 : W3 m ρ c (Proc.devRef .tc main_v3) = W2 m ρ c (Proc.devRef .tc main_v3)).trans (w2_v3 m ρ c)
theorem w3_v5 : W3 m ρ c (Proc.devRef .tc main_v5) = Cert.ReferenceIdeal.Read.val_main_v6 (F := Ideal) (m ((c : Thread nD τ).loc main_arg1)) :=
  (by kept_through hostOps0_2 : W3 m ρ c (Proc.devRef .tc main_v5) = W2 m ρ c (Proc.devRef .tc main_v5)).trans (w2_v5 m ρ c)
theorem w3_v6 : W3 m ρ c (Proc.devRef .tc main_v6) = Cert.ReferenceIdeal.Read.val_main_v7 (F := Ideal) (m ((c : Thread nD τ).loc main_arg1)) :=
  (by kept_through hostOps0_2 : W3 m ρ c (Proc.devRef .tc main_v6) = W2 m ρ c (Proc.devRef .tc main_v6)).trans (w2_v6 m ρ c)
theorem w3_arg0 : W3 m ρ c (Proc.devRef .tc main_arg0) = (m ((c : Thread nD τ).loc main_arg0)) :=
  (by kept_through hostOps0_2 : W3 m ρ c (Proc.devRef .tc main_arg0) = W2 m ρ c (Proc.devRef .tc main_arg0)).trans (w2_arg0 m ρ c)
theorem w3_arg2 : W3 m ρ c (Proc.devRef .tc main_arg2) = (m ((c : Thread nD τ).loc main_arg2)) :=
  (by kept_through hostOps0_2 : W3 m ρ c (Proc.devRef .tc main_arg2) = W2 m ρ c (Proc.devRef .tc main_arg2)).trans (w2_arg2 m ρ c)
theorem w3_arg3 : W3 m ρ c (Proc.devRef .tc main_arg3) = (m ((c : Thread nD τ).loc main_arg3)) :=
  (by kept_through hostOps0_2 : W3 m ρ c (Proc.devRef .tc main_arg3) = W2 m ρ c (Proc.devRef .tc main_arg3)).trans (w2_arg3 m ρ c)
theorem w3_arg4 : W3 m ρ c (Proc.devRef .tc main_arg4) = (m ((c : Thread nD τ).loc main_arg4)) :=
  (by kept_through hostOps0_2 : W3 m ρ c (Proc.devRef .tc main_arg4) = W2 m ρ c (Proc.devRef .tc main_arg4)).trans (w2_arg4 m ρ c)
theorem w3_arg5 : W3 m ρ c (Proc.devRef .tc main_arg5) = (m ((c : Thread nD τ).loc main_arg5)) :=
  (by kept_through hostOps0_2 : W3 m ρ c (Proc.devRef .tc main_arg5) = W2 m ρ c (Proc.devRef .tc main_arg5)).trans (w2_arg5 m ρ c)
theorem w3_arg6 : W3 m ρ c (Proc.devRef .tc main_arg6) = (m ((c : Thread nD τ).loc main_arg6)) :=
  (by kept_through hostOps0_2 : W3 m ρ c (Proc.devRef .tc main_arg6) = W2 m ρ c (Proc.devRef .tc main_arg6)).trans (w2_arg6 m ρ c)

end Cert.KernelIdeal.Hand

end
-- ==== Proof.RegionMatmul.lean ====
import proofs.«142800_j58729382805607_2_alg».proof.Proof.Gen.KernelIdeal.Frame
import proofs.«142800_j58729382805607_2_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The zero offset vector of a whole-block access, as a constant function. -/
theorem hz : (![0, 0] : Fin 2 → Nat) = fun _ => 0 := funext fun a => by fin_cases a <;> rfl

/-- the whole product x·w, entry by entry -/
def mm0 (x : S50000x256.Idx → EReal) (w : S256x64.Idx → EReal) : S50000x64.Idx → EReal :=
  fun i => ∑ k : Fin 256, x (ix2 ⟨(i 0).val, (i 0).isLt⟩ k) * w (ix2 k ⟨(i 1).val, (i 1).isLt⟩)

/-- relu(a + bias row)·w, entry by entry -/
def mm1 (a : S50000x64.Idx → EReal) (b : S1x64.Idx → EReal) (w : S64x40.Idx → EReal) : S50000x40.Idx → EReal :=
  fun i => ∑ k : Fin 64, max (a (ix2 ⟨(i 0).val, (i 0).isLt⟩ k) + b (ix2 (0 : Fin 1) k)) (Ideal.ofBits .f32 0x00000000#32) * w (ix2 k ⟨(i 1).val, (i 1).isLt⟩)

/-- The first layer's block product at an entry: row p of the left block against column q of the right one. -/
theorem prod_pay_apply (x0 : Vec Ideal S5000x256 .f32) (x1 : Vec Ideal S256x64 .f32) (p : Fin 5000) (q : Fin 64) :
    k0_pay1 x0 x1 (ix2 p q) = ∑ k : Fin 256, x0 (ix2 p k) * x1 (ix2 k q) := by
  unfold k0_pay1
  refine (Ideal.matmul_constant_zero_apply dot_S5000x256_S256x64_S5000x64_1_0_0_1_n_n none _ _ (ix2 p q)).trans ?_
  rw [← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ =>
      show (dot_S5000x256_S256x64_S5000x64_1_0_0_1_n_n.lhsIdx (ix2 p q) _ 0).val = p.val
      unfold DotDims.lhsIdx
      rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
      rfl
    | ⟨1, _⟩ => exact (dot_S5000x256_S256x64_S5000x64_1_0_0_1_n_n.lhsIdx_val_of_single rfl (ix2 p q) _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (dot_S5000x256_S256x64_S5000x64_1_0_0_1_n_n.rhsIdx_val_of_single rfl (ix2 p q) _).trans hk
    | ⟨1, _⟩ =>
      show (dot_S5000x256_S256x64_S5000x64_1_0_0_1_n_n.rhsIdx (ix2 p q) _ 1).val = q.val
      unfold DotDims.rhsIdx
      rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
      rfl)
  rw [el, er]
  rfl

section Region0
variable (V : (c : Dev nD) → (b : Ref sig .tc) → Buf (Elt Ideal) ((c : Thread nD τ).loc b))

/-- The block index maps of the first product, decided over the grid: point t reads row block t of the left
    operand, the whole right operand, and writes row block t of the result. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The payload at an entry of the block, when the two blocks hold the rows and columns of whole arrays X and W
    that the entry i of the product needs. -/
theorem pay0_point (x0 : Vec Ideal S5000x256 .f32) (x1 : Vec Ideal S256x64 .f32) (X : S50000x256.Idx → EReal) (W : S256x64.Idx → EReal)
    (j : S5000x64.Idx) (i : S50000x64.Idx)
    (h0 : ∀ k : Fin 256, x0 (ix2 ⟨(j 0).val, (j 0).isLt⟩ k) = X (ix2 ⟨(i 0).val, (i 0).isLt⟩ k))
    (h1 : ∀ k : Fin 256, x1 (ix2 k ⟨(j 1).val, (j 1).isLt⟩) = W (ix2 k ⟨(i 1).val, (i 1).isLt⟩)) :
    k0_pay1 x0 x1 j = mm0 X W i := by
  obtain ⟨p, q, rfl⟩ : ∃ (p : Fin 5000) (q : Fin 64), j = ix2 p q := ⟨j 0, j 1, eq_ix2 j⟩
  rw [prod_pay_apply]
  unfold mm0
  exact Finset.sum_congr rfl fun k _ => by
    rw [show x0 (ix2 p k) = _ from h0 k, show x1 (ix2 k q) = _ from h1 k]

/-- The left operand's block at point t holds rows 5000 t … 5000 t + 4999 of the array. -/
theorem iblk0_0_apply (c : Dev nD) (t : Fin cfg0.N) (x : S5000x256.Idx) (i : S50000x256.Idx)
    (hi0 : (i 0).val = 5000 * t.val + (x 0).val) (hi1 : (i 1).val = (x 1).val) :
    (iblk0 V c 0 t : Vec Ideal S5000x256 .f32) x = (V c main_arg0 : S50000x256.Idx → EReal) i := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * (x 0).val = (i 0).val; rw [e0, hi0]; omega
  | ⟨1, _⟩ => show win0_0.index t (1 : Fin 2) * 256 + 1 * (x 1).val = (i 1).val; rw [e1, hi1]; omega

/-- The right operand's block at every point is the whole array. -/
theorem iblk0_1_apply (c : Dev nD) (t : Fin cfg0.N) (x : S256x64.Idx) (i : S256x64.Idx)
    (hi0 : (i 0).val = (x 0).val) (hi1 : (i 1).val = (x 1).val) :
    (iblk0 V c 1 t : Vec Ideal S256x64 .f32) x = (V c main_arg3 : S256x64.Idx → EReal) i := by
  obtain ⟨-, -, e0, e1, -, -⟩ := idx_facts0 t
  unfold iblk0
  rw [View.read_apply]
  show V c main_arg3 _ = V c main_arg3 _
  congr 1
  funext a
  apply Fin.ext
  match a with
  | ⟨0, _⟩ => show win0_1.index t (0 : Fin 2) * 256 + 1 * (x 0).val = (i 0).val; rw [e0, hi0]; omega
  | ⟨1, _⟩ => show win0_1.index t (1 : Fin 2) * 64 + 1 * (x 1).val = (i 1).val; rw [e1, hi1]; omega

/-- What point t writes back is block t of the whole product. -/
theorem flushed0_eq (c : Dev nD) (t : Fin cfg0.N) :
    (dat0 (F := Ideal) V c).flushed 2 t = ((cfg0.win 2).blk t).view.read (Elt Ideal) (mm0 (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x64) hz]
  obtain ⟨-, -, -, -, e0, e1⟩ := idx_facts0 t
  funext j
  rw [View.read_apply]
  have hj0 : (j 0).val < 5000 := (j 0).isLt
  have hj1 : (j 1).val < 64 := (j 1).isLt
  have m0 : ((((cfg0.win 2).blk t).view.emb j) 0).val = 5000 * t.val + (j 0).val := by
    show win0_2.index t (0 : Fin 2) * 5000 + 1 * (j 0).val = _; rw [e0]; omega
  have m1 : ((((cfg0.win 2).blk t).view.emb j) 1).val = (j 1).val := by
    show win0_2.index t (1 : Fin 2) * 64 + 1 * (j 1).val = _; rw [e1]; omega
  refine pay0_point _ _ _ _ j _ (fun k => ?_) (fun k => ?_)
  · exact iblk0_0_apply V c t _ _ m0 rfl
  · exact iblk0_1_apply V c t _ _ rfl m1

/-- An index of the result is in point t's block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The first product's result array after the region: the whole product of the two arrays the region found. -/
theorem final0 (c : Dev nD) :
    (dat0 (F := Ideal) V c).arrAt 2 cfg0.N = mm0 (V c main_arg0) (V c main_arg3) :=
  (dat0 (F := Ideal) V c).arrAt_eq_of_cover 2 (mm0 (V c main_arg0) (V c main_arg3)) (fun t _ => flushed0_eq V c t) fun i => by
    have hi0 : (i 0).val < 50000 := (i 0).isLt
    have hi1 : (i 1).val < 64 := (i 1).isLt
    have hN : cfg0.N = 10 := N_0
    let t : Fin cfg0.N := ⟨(i 0).val / 5000, by rw [hN]; omega⟩
    obtain ⟨-, -, -, -, e0, e1⟩ := idx_facts0 t
    have e0' : win0_2.index t (0 : Fin 2) = (i 0).val / 5000 := e0
    refine ⟨t, flush0_2 t, ?_⟩
    rw [mem_blk0]
    intro a
    match a with
    | ⟨0, _⟩ => show win0_2.index t (0 : Fin 2) * 5000 ≤ (i 0).val ∧ (i 0).val < win0_2.index t (0 : Fin 2) * 5000 + 5000; rw [e0']; omega
    | ⟨1, _⟩ => show win0_2.index t (1 : Fin 2) * 64 ≤ (i 1).val ∧ (i 1).val < win0_2.index t (1 : Fin 2) * 64 + 64; rw [e1]; omega

end Region0

/-- The second layer's block at an entry: relu of row p of the left block plus the bias row, against column q of
    the right block. -/
theorem relu_pay_apply (x0 : Vec Ideal S5000x64 .f32) (x1 : Vec Ideal S1x64 .f32) (x2 : Vec Ideal S64x40 .f32) (p : Fin 5000) (q : Fin 40) :
    k1_pay1 x0 x1 x2 (ix2 p q) = ∑ k : Fin 64, max (x0 (ix2 p k) + x1 (ix2 (0 : Fin 1) k)) (Ideal.ofBits .f32 0x00000000#32) * x2 (ix2 k q) := by
  unfold k1_pay1
  refine (Ideal.matmul_constant_zero_apply dot_S5000x64_S64x40_S5000x40_1_0_0_1_n_n none _ _ (ix2 p q)).trans ?_
  rw [← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k := funext fun a => Fin.ext (by
    match a with
    | ⟨0, _⟩ =>
      show (dot_S5000x64_S64x40_S5000x40_1_0_0_1_n_n.lhsIdx (ix2 p q) _ 0).val = p.val
      unfold DotDims.lhsIdx
      rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
      rfl
    | ⟨1, _⟩ => exact (dot_S5000x64_S64x40_S5000x40_1_0_0_1_n_n.lhsIdx_val_of_single rfl (ix2 p q) _).trans hk)
  have er : dot_S5000x64_S64x40_S5000x40_1_0_0_1_n_n.rhsIdx (ix2 p q) ((contrEquiv1 dot_S5000x64_S64x40_S5000x40_1_0_0_1_n_n 64 rfl rfl).symm k) = ix2 k q := funext fun a => Fin.ext (by
    match a with
    | ⟨0, _⟩ => exact (dot_S5000x64_S64x40_S5000x40_1_0_0_1_n_n.rhsIdx_val_of_single rfl (ix2 p q) _).trans hk
    | ⟨1, _⟩ =>
      show (dot_S5000x64_S64x40_S5000x40_1_0_0_1_n_n.rhsIdx (ix2 p q) _ 1).val = q.val
      unfold DotDims.rhsIdx
      rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
      rfl)
  rw [el, er]
  have eb : broadcastTo S5000x64 x1 broadcasts_S1x64_S5000x64 (ix2 p k) = x1 (ix2 (0 : Fin 1) k) :=
    broadcastTo_apply x1 broadcasts_S1x64_S5000x64 (ix2 p k) (ix2 (0 : Fin 1) k) (fun a => by
      match a with
      | ⟨0, _⟩ => show 0 = if (1 : Nat) = 1 then 0 else _; rw [if_pos rfl]
      | ⟨1, _⟩ => show k.val = if (64 : Nat) = 1 then 0 else k.val; rw [if_neg (by decide)])
  show max (shapeCast S5000x64 x0 shapeCasts_S5000x64_S5000x64 (ix2 p k) + broadcastTo S5000x64 (shapeCast S1x64 x1 shapeCasts_S1x64_S1x64) broadcasts_S1x64_S5000x64 (ix2 p k)) (Ideal.ofBits .f32 0x00000000#32) * x2 (ix2 k q) = _
  rw [shapeCast_self, shapeCast_self, eb]

section Region1
variable (V : (c : Dev nD) → (b : Ref sig .tc) → Buf (Elt Ideal) ((c : Thread nD τ).loc b))

/-- The block index maps of the second product, decided over the grid: point t reads row block t of the left
    operand, the whole bias row and the whole right operand, and writes row block t of the result. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The payload at an entry of the block, when the three blocks hold the rows, the bias row and the columns of
    whole arrays A, B and W that the entry i of the result needs. -/
theorem pay1_point (x0 : Vec Ideal S5000x64 .f32) (x1 : Vec Ideal S1x64 .f32) (x2 : Vec Ideal S64x40 .f32)
    (A : S50000x64.Idx → EReal) (B : S1x64.Idx → EReal) (W : S64x40.Idx → EReal)
    (j : S5000x40.Idx) (i : S50000x40.Idx)
    (h0 : ∀ k : Fin 64, x0 (ix2 ⟨(j 0).val, (j 0).isLt⟩ k) = A (ix2 ⟨(i 0).val, (i 0).isLt⟩ k))
    (h1 : ∀ k : Fin 64, x1 (ix2 (0 : Fin 1) k) = B (ix2 (0 : Fin 1) k))
    (h2 : ∀ k : Fin 64, x2 (ix2 k ⟨(j 1).val, (j 1).isLt⟩) = W (ix2 k ⟨(i 1).val, (i 1).isLt⟩)) :
    k1_pay1 x0 x1 x2 j = mm1 A B W i := by
  obtain ⟨p, q, rfl⟩ : ∃ (p : Fin 5000) (q : Fin 40), j = ix2 p q := ⟨j 0, j 1, eq_ix2 j⟩
  rw [relu_pay_apply]
  unfold mm1
  exact Finset.sum_congr rfl fun k _ => by
    rw [show x0 (ix2 p k) = _ from h0 k, h1 k, show x2 (ix2 k q) = _ from h2 k]

/-- The left operand's block at point t holds rows 5000 t … 5000 t + 4999 of the array. -/
theorem iblk1_0_apply (c : Dev nD) (t : Fin cfg1.N) (x : S5000x64.Idx) (i : S50000x64.Idx)
    (hi0 : (i 0).val = 5000 * t.val + (x 0).val) (hi1 : (i 1).val = (x 1).val) :
    (iblk1 V c 0 t : Vec Ideal S5000x64 .f32) x = (V c main_v45 : S50000x64.Idx → EReal) i := by
  obtain ⟨e0, e1, -, -, -, -, -, -⟩ := idx_facts1 t
  unfold iblk1
  rw [View.read_apply]
  show V c main_v45 _ = V c main_v45 _
  congr 1
  funext a
  apply Fin.ext
  match a with
  | ⟨0, _⟩ => show win1_0.index t (0 : Fin 2) * 5000 + 1 * (x 0).val = (i 0).val; rw [e0, hi0]; omega
  | ⟨1, _⟩ => show win1_0.index t (1 : Fin 2) * 64 + 1 * (x 1).val = (i 1).val; rw [e1, hi1]; omega

/-- The bias row's block at every point is the whole row. -/
theorem iblk1_1_apply (c : Dev nD) (t : Fin cfg1.N) (x : S1x64.Idx) (i : S1x64.Idx)
    (hi0 : (i 0).val = (x 0).val) (hi1 : (i 1).val = (x 1).val) :
    (iblk1 V c 1 t : Vec Ideal S1x64 .f32) x = (V c main_v46 : S1x64.Idx → EReal) i := by
  obtain ⟨-, -, e0, e1, -, -, -, -⟩ := idx_facts1 t
  unfold iblk1
  rw [View.read_apply]
  show V c main_v46 _ = V c main_v46 _
  congr 1
  funext a
  apply Fin.ext
  match a with
  | ⟨0, _⟩ => show win1_1.index t (0 : Fin 2) * 1 + 1 * (x 0).val = (i 0).val; rw [e0, hi0]; omega
  | ⟨1, _⟩ => show win1_1.index t (1 : Fin 2) * 64 + 1 * (x 1).val = (i 1).val; rw [e1, hi1]; omega

/-- The right operand's block at every point is the whole array. -/
theorem iblk1_2_apply (c : Dev nD) (t : Fin cfg1.N) (x : S64x40.Idx) (i : S64x40.Idx)
    (hi0 : (i 0).val = (x 0).val) (hi1 : (i 1).val = (x 1).val) :
    (iblk1 V c 2 t : Vec Ideal S64x40 .f32) x = (V c main_arg5 : S64x40.Idx → EReal) i := by
  obtain ⟨-, -, -, -, e0, e1, -, -⟩ := idx_facts1 t
  unfold iblk1
  rw [View.read_apply]
  show V c main_arg5 _ = V c main_arg5 _
  congr 1
  funext a
  apply Fin.ext
  match a with
  | ⟨0, _⟩ => show win1_2.index t (0 : Fin 2) * 64 + 1 * (x 0).val = (i 0).val; rw [e0, hi0]; omega
  | ⟨1, _⟩ => show win1_2.index t (1 : Fin 2) * 40 + 1 * (x 1).val = (i 1).val; rw [e1, hi1]; omega

/-- What point t writes back is block t of the whole second-layer product. -/
theorem flushed1_eq (c : Dev nD) (t : Fin cfg1.N) :
    (dat1 (F := Ideal) V c).flushed 3 t = ((cfg1.win 3).blk t).view.read (Elt Ideal) (mm1 (V c main_v45) (V c main_v46) (V c main_arg5)) := by
  show (cfg1.win 3).cut (grid1.coords t) ((dat1 (F := Ideal) V c).after 3 t) = _
  rw [after1_3]
  unfold out1_3
  rw [View.canon_unit_zero hz]
  simp only [View.ld_unit_zero (S := S5000x64) hz, View.ld_unit_zero (S := S1x64) hz, View.ld_unit_zero (S := S64x40) hz]
  obtain ⟨-, -, -, -, -, -, e0, e1⟩ := idx_facts1 t
  funext j
  rw [View.read_apply]
  have hj0 : (j 0).val < 5000 := (j 0).isLt
  have hj1 : (j 1).val < 40 := (j 1).isLt
  have m0 : ((((cfg1.win 3).blk t).view.emb j) 0).val = 5000 * t.val + (j 0).val := by
    show win1_3.index t (0 : Fin 2) * 5000 + 1 * (j 0).val = _; rw [e0]; omega
  have m1 : ((((cfg1.win 3).blk t).view.emb j) 1).val = (j 1).val := by
    show win1_3.index t (1 : Fin 2) * 40 + 1 * (j 1).val = _; rw [e1]; omega
  refine pay1_point _ _ _ _ _ _ j _ (fun k => ?_) (fun k => ?_) (fun k => ?_)
  · exact iblk1_0_apply V c t _ _ m0 rfl
  · exact iblk1_1_apply V c t _ _ rfl rfl
  · exact iblk1_2_apply V c t _ _ rfl m1

/-- An index of the result is in point t's block iff each coordinate is in the block's range on its axis. -/
theorem mem_blk1 (t : Fin cfg1.N) (i : S50000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v47).slice (win1_3.rect t)).set ↔ _
  rw [View.set_slice_whole, Rect.mem_set_unit]
  exact Iff.rfl

/-- The second product's result array after the region: relu of the array plus the bias row, times the weights,
    of the three arrays the region found. -/
theorem final1 (c : Dev nD) :
    (dat1 (F := Ideal) V c).arrAt 3 cfg1.N = mm1 (V c main_v45) (V c main_v46) (V c main_arg5) :=
  (dat1 (F := Ideal) V c).arrAt_eq_of_cover 3 (mm1 (V c main_v45) (V c main_v46) (V c main_arg5)) (fun t _ => flushed1_eq V c t) fun i => by
    have hi0 : (i 0).val < 50000 := (i 0).isLt
    have hi1 : (i 1).val < 40 := (i 1).isLt
    have hN : cfg1.N = 10 := N_1
    let t : Fin cfg1.N := ⟨(i 0).val / 5000, by rw [hN]; omega⟩
    obtain ⟨-, -, -, -, -, -, e0, e1⟩ := idx_facts1 t
    have e0' : win1_3.index t (0 : Fin 2) = (i 0).val / 5000 := e0
    refine ⟨t, flush1_3 t, ?_⟩
    rw [mem_blk1]
    intro a
    match a with
    | ⟨0, _⟩ => show win1_3.index t (0 : Fin 2) * 5000 ≤ (i 0).val ∧ (i 0).val < win1_3.index t (0 : Fin 2) * 5000 + 5000; rw [e0']; omega
    | ⟨1, _⟩ => show win1_3.index t (1 : Fin 2) * 40 ≤ (i 1).val ∧ (i 1).val < win1_3.index t (1 : Fin 2) * 40 + 40; rw [e1]; omega

end Region1

/-- The reference's first product is the whole product mm0. -/
theorem ref_dot0 (x0 : FVec Ideal S50000x256 .f32) (x3 : FVec Ideal S256x64 .f32) :
    Host.dotGeneral (F := Ideal) Cert.ReferenceIdeal.dot_S50000x256_S256x64_S50000x64_1_0_0_1_n_n none x0 x3 = mm0 x0 x3 := by
  funext i
  simp only [Host.dotGeneral]
  rw [Ideal.dotGeneral_apply, ← Equiv.sum_comp (contrEquiv1 Cert.ReferenceIdeal.dot_S50000x256_S256x64_S50000x64_1_0_0_1_n_n 256 rfl rfl).symm]
  unfold mm0
  refine Finset.sum_congr rfl fun k _ => ?_
  have hk := contrEquiv1_symm_val Cert.ReferenceIdeal.dot_S50000x256_S256x64_S50000x64_1_0_0_1_n_n 256 rfl rfl k
  have el : Cert.ReferenceIdeal.dot_S50000x256_S256x64_S50000x64_1_0_0_1_n_n.lhsIdx i ((contrEquiv1 Cert.ReferenceIdeal.dot_S50000x256_S256x64_S50000x64_1_0_0_1_n_n 256 rfl rfl).symm k) = ix2 ⟨(i 0).val, (i 0).isLt⟩ k := funext fun a => Fin.ext (by
    match a with
    | ⟨0, _⟩ =>
      show (Cert.ReferenceIdeal.dot_S50000x256_S256x64_S50000x64_1_0_0_1_n_n.lhsIdx i _ 0).val = (i 0).val
      unfold DotDims.lhsIdx
      rw [dif_neg (show ¬(0 : Fin Cert.ReferenceIdeal.S50000x256.rank) ∈ Cert.ReferenceIdeal.dot_S50000x256_S256x64_S50000x64_1_0_0_1_n_n.lhsBatch by decide), dif_pos (show (0 : Fin Cert.ReferenceIdeal.S50000x256.rank) ∈ Cert.ReferenceIdeal.dot_S50000x256_S256x64_S50000x64_1_0_0_1_n_n.lhsNonContracting by decide)]
      rfl
    | ⟨1, _⟩ => exact (Cert.ReferenceIdeal.dot_S50000x256_S256x64_S50000x64_1_0_0_1_n_n.lhsIdx_val_of_single rfl i _).trans hk)
  have er : Cert.ReferenceIdeal.dot_S50000x256_S256x64_S50000x64_1_0_0_1_n_n.rhsIdx i ((contrEquiv1 Cert.ReferenceIdeal.dot_S50000x256_S256x64_S50000x64_1_0_0_1_n_n 256 rfl rfl).symm k) = ix2 k ⟨(i 1).val, (i 1).isLt⟩ := funext fun a => Fin.ext (by
    match a with
    | ⟨0, _⟩ => exact (Cert.ReferenceIdeal.dot_S50000x256_S256x64_S50000x64_1_0_0_1_n_n.rhsIdx_val_of_single rfl i _).trans hk
    | ⟨1, _⟩ =>
      show (Cert.ReferenceIdeal.dot_S50000x256_S256x64_S50000x64_1_0_0_1_n_n.rhsIdx i _ 1).val = (i 1).val
      unfold DotDims.rhsIdx
      rw [dif_neg (show ¬(1 : Fin Cert.ReferenceIdeal.S256x64.rank) ∈ Cert.ReferenceIdeal.dot_S50000x256_S256x64_S50000x64_1_0_0_1_n_n.rhsBatch by decide), dif_pos (show (1 : Fin Cert.ReferenceIdeal.S256x64.rank) ∈ Cert.ReferenceIdeal.dot_S50000x256_S256x64_S50000x64_1_0_0_1_n_n.rhsNonContracting by decide)]
      rfl)
  rw [el, er]
  rfl

/-- The reference's second-layer product, for any array a in place of the aggregated first layer: the bias is laid
    along every row, the zero scalar everywhere, and the product with the weights is the sum over the 64 hidden
    features — the same function mm1 of a, the bias as a one-row array, and the weights. -/
theorem ref_mm1 (a : FVec Ideal S50000x64 .f32) (x4 : FVec Ideal S64 .f32) (x5 : FVec Ideal S64x40 .f32) :
    Host.dotGeneral (F := Ideal) Cert.ReferenceIdeal.dot_S50000x64_S64x40_S50000x40_1_0_0_1_n_n none
      (maximumf (addf a (broadcastInDim Cert.ReferenceIdeal.S50000x64 ![0, 1] Cert.ReferenceIdeal.Gen.bcast_S1x64_S50000x64_0_1 (broadcastInDim Cert.ReferenceIdeal.S1x64 ![1] Cert.ReferenceIdeal.Gen.bcast_S64_S1x64_1 x4)))
        (broadcastInDim Cert.ReferenceIdeal.S50000x64 ![] Cert.ReferenceIdeal.Gen.bcast_S_S50000x64 (constant (F := Ideal) Cert.ReferenceIdeal.S_ .f32 0x00000000#32))) x5
    = mm1 a (shapeCast S1x64 x4 shapeCasts_S64_S1x64) x5 := by
  funext i
  simp only [Host.dotGeneral]
  rw [Ideal.dotGeneral_apply, ← Equiv.sum_comp (contrEquiv1 Cert.ReferenceIdeal.dot_S50000x64_S64x40_S50000x40_1_0_0_1_n_n 64 rfl rfl).symm]
  unfold mm1
  refine Finset.sum_congr rfl fun k _ => ?_
  have hk := contrEquiv1_symm_val Cert.ReferenceIdeal.dot_S50000x64_S64x40_S50000x40_1_0_0_1_n_n 64 rfl rfl k
  have el : Cert.ReferenceIdeal.dot_S50000x64_S64x40_S50000x40_1_0_0_1_n_n.lhsIdx i ((contrEquiv1 Cert.ReferenceIdeal.dot_S50000x64_S64x40_S50000x40_1_0_0_1_n_n 64 rfl rfl).symm k) = ix2 ⟨(i 0).val, (i 0).isLt⟩ k := funext fun a => Fin.ext (by
    match a with
    | ⟨0, _⟩ =>
      show (Cert.ReferenceIdeal.dot_S50000x64_S64x40_S50000x40_1_0_0_1_n_n.lhsIdx i _ 0).val = (i 0).val
      unfold DotDims.lhsIdx
      rw [dif_neg (show ¬(0 : Fin Cert.ReferenceIdeal.S50000x64.rank) ∈ Cert.ReferenceIdeal.dot_S50000x64_S64x40_S50000x40_1_0_0_1_n_n.lhsBatch by decide), dif_pos (show (0 : Fin Cert.ReferenceIdeal.S50000x64.rank) ∈ Cert.ReferenceIdeal.dot_S50000x64_S64x40_S50000x40_1_0_0_1_n_n.lhsNonContracting by decide)]
      rfl
    | ⟨1, _⟩ => exact (Cert.ReferenceIdeal.dot_S50000x64_S64x40_S50000x40_1_0_0_1_n_n.lhsIdx_val_of_single rfl i _).trans hk)
  have er : Cert.ReferenceIdeal.dot_S50000x64_S64x40_S50000x40_1_0_0_1_n_n.rhsIdx i ((contrEquiv1 Cert.ReferenceIdeal.dot_S50000x64_S64x40_S50000x40_1_0_0_1_n_n 64 rfl rfl).symm k) = ix2 k ⟨(i 1).val, (i 1).isLt⟩ := funext fun a => Fin.ext (by
    match a with
    | ⟨0, _⟩ => exact (Cert.ReferenceIdeal.dot_S50000x64_S64x40_S50000x40_1_0_0_1_n_n.rhsIdx_val_of_single rfl i _).trans hk
    | ⟨1, _⟩ =>
      show (Cert.ReferenceIdeal.dot_S50000x64_S64x40_S50000x40_1_0_0_1_n_n.rhsIdx i _ 1).val = (i 1).val
      unfold DotDims.rhsIdx
      rw [dif_neg (show ¬(1 : Fin Cert.ReferenceIdeal.S64x40.rank) ∈ Cert.ReferenceIdeal.dot_S50000x64_S64x40_S50000x40_1_0_0_1_n_n.rhsBatch by decide), dif_pos (show (1 : Fin Cert.ReferenceIdeal.S64x40.rank) ∈ Cert.ReferenceIdeal.dot_S50000x64_S64x40_S50000x40_1_0_0_1_n_n.rhsNonContracting by decide)]
      rfl)
  rw [el, er]
  have e1 : broadcastInDim Cert.ReferenceIdeal.S50000x64 ![0, 1] Cert.ReferenceIdeal.Gen.bcast_S1x64_S50000x64_0_1 (broadcastInDim Cert.ReferenceIdeal.S1x64 ![1] Cert.ReferenceIdeal.Gen.bcast_S64_S1x64_1 x4) (ix2 ⟨(i 0).val, (i 0).isLt⟩ k)
      = broadcastInDim Cert.ReferenceIdeal.S1x64 ![1] Cert.ReferenceIdeal.Gen.bcast_S64_S1x64_1 x4 (ix2 (0 : Fin 1) k) :=
    broadcastInDim_apply _ Cert.ReferenceIdeal.Gen.bcast_S1x64_S50000x64_0_1 _ _ (ix2 (0 : Fin 1) k) (fun a => match a with
      | ⟨0, _⟩ => by show 0 = if (1 : Nat) = 1 then 0 else (i 0).val; rw [if_pos rfl]
      | ⟨1, _⟩ => by show k.val = if (64 : Nat) = 1 then 0 else k.val; rw [if_neg (by decide)])
  have e2 : broadcastInDim Cert.ReferenceIdeal.S1x64 ![1] Cert.ReferenceIdeal.Gen.bcast_S64_S1x64_1 x4 (ix2 (0 : Fin 1) k) = x4 (ix1 k) :=
    broadcastInDim_apply _ Cert.ReferenceIdeal.Gen.bcast_S64_S1x64_1 x4 (ix2 (0 : Fin 1) k) (ix1 k) (fun a => match a with
      | ⟨0, _⟩ => by show k.val = if (64 : Nat) = 1 then 0 else k.val; rw [if_neg (by decide)])
  have e3 : shapeCast S1x64 x4 shapeCasts_S64_S1x64 (ix2 (0 : Fin 1) k) = x4 (ix1 k) :=
    shapeCast_apply x4 shapeCasts_S64_S1x64 (ix2 (0 : Fin 1) k) (ix1 k)
      (by rewrite [Shape.rowMajor_val_two, Shape.rowMajor_val_one]; show k.val = 0 * 64 + k.val; omega)
  have e4 : broadcastInDim Cert.ReferenceIdeal.S50000x64 ![] Cert.ReferenceIdeal.Gen.bcast_S_S50000x64 (constant (F := Ideal) Cert.ReferenceIdeal.S_ .f32 0x00000000#32) (ix2 ⟨(i 0).val, (i 0).isLt⟩ k)
      = Ideal.ofBits .f32 0x00000000#32 :=
    (broadcastInDim_apply _ Cert.ReferenceIdeal.Gen.bcast_S_S50000x64 (constant (F := Ideal) Cert.ReferenceIdeal.S_ .f32 0x00000000#32) _ (fun a => a.elim0) (fun a => a.elim0)).trans rfl
  show max (a (ix2 ⟨(i 0).val, (i 0).isLt⟩ k) + broadcastInDim Cert.ReferenceIdeal.S50000x64 ![0, 1] Cert.ReferenceIdeal.Gen.bcast_S1x64_S50000x64_0_1 (broadcastInDim Cert.ReferenceIdeal.S1x64 ![1] Cert.ReferenceIdeal.Gen.bcast_S64_S1x64_1 x4) (ix2 ⟨(i 0).val, (i 0).isLt⟩ k))
      (broadcastInDim Cert.ReferenceIdeal.S50000x64 ![] Cert.ReferenceIdeal.Gen.bcast_S_S50000x64 (constant (F := Ideal) Cert.ReferenceIdeal.S_ .f32 0x00000000#32) (ix2 ⟨(i 0).val, (i 0).isLt⟩ k)) * x5 (ix2 k ⟨(i 1).val, (i 1).isLt⟩) = _
  rw [e1, e2, e3, e4]

/-- The reference's first stage is the whole product of its two arguments. -/
theorem ref_mm0 (x0 : FVec Ideal S50000x256 .f32) (x3 : FVec Ideal S256x64 .f32) :
    Cert.ReferenceIdeal.Read.val_main_v4 (F := Ideal) x0 x3 = mm0 x0 x3 :=
  ref_dot0 x0 x3

/-- The reference's second-layer stage is mm1 of its aggregated first layer, the bias as a one-row array, and the
    second weights: the stages between them are the bias broadcasts, the sum, the zero splat and the maximum. -/
theorem ref_mm1_val (x0 : (⟨Cert.ReferenceIdeal.S50000x256, .f32⟩ : BufTy).Contents (Elt Ideal))
    (x1 : (⟨Cert.ReferenceIdeal.S2x1600000, .i32⟩ : BufTy).Contents (Elt Ideal))
    (x3 : (⟨Cert.ReferenceIdeal.S256x64, .f32⟩ : BufTy).Contents (Elt Ideal))
    (x4 : (⟨Cert.ReferenceIdeal.S64, .f32⟩ : BufTy).Contents (Elt Ideal))
    (x5 : (⟨Cert.ReferenceIdeal.S64x40, .f32⟩ : BufTy).Contents (Elt Ideal)) :
    Cert.ReferenceIdeal.Read.val_main_v50 (F := Ideal) x0 x1 x3 x4 x5
      = mm1 (Cert.ReferenceIdeal.Read.val_main_v45 (F := Ideal) x0 x1 x3) (shapeCast S1x64 x4 shapeCasts_S64_S1x64) x5 :=
  ref_mm1 (Cert.ReferenceIdeal.Read.val_main_v45 (F := Ideal) x0 x1 x3) x4 x5

end Cert.KernelIdeal.Hand

end
-- ==== Proof.ChainMid.lean ====
/-
  From the first pipelined region to the entry of the third: what the fold of the kernel program's segments holds at each
  array the rest of the program reads, as a stage of the reference.

  Region 0 leaves xw1 = x·W1 (row tiles of one product are the whole product); the host stretch after it gathers the rows
  of xw1 at s, scales them by the edge weights and adds them into the rows d: agg1.  Region 1 leaves
  xw2 = relu(agg1 + b1)·W2, the next stretch aggregates it the same way: agg2.  At every step the operations applied to
  the region's result are the reference's own, so each array is the reference's stage once the region's result is.
-/
import proofs.«142800_j58729382805607_2_alg».proof.Proof.HostPre
import proofs.«142800_j58729382805607_2_alg».proof.Proof.RegionMatmul

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ) (ρ : Dev nD → PrngReg) (c : Dev nD)

/-! ## Region 0: the first product -/
theorem w4_v32 : W4 m ρ c (Proc.devRef .tc main_v32) = Cert.ReferenceIdeal.Read.val_main_v4 (F := Ideal) (m ((c : Thread nD τ).loc main_arg0)) (m ((c : Thread nD τ).loc main_arg3)) := by
  refine (W4_arr m ρ c 2).trans ((final0 (V3 m ρ) c).trans ?_)
  rw [show V3 m ρ c main_arg0 = (m ((c : Thread nD τ).loc main_arg0)) from w3_arg0 m ρ c, show V3 m ρ c main_arg3 = (m ((c : Thread nD τ).loc main_arg3)) from w3_arg3 m ρ c]
  exact (ref_mm0 _ _).symm
theorem w4_v1 : W4 m ρ c (Proc.devRef .tc main_v1) = Cert.ReferenceIdeal.Read.val_main_v1 (F := Ideal) (m ((c : Thread nD τ).loc main_arg1)) :=
  (W4_of_ne m ρ c main_v1 (by decide)).trans (w3_v1 m ρ c)
theorem w4_v3 : W4 m ρ c (Proc.devRef .tc main_v3) = Cert.ReferenceIdeal.Read.val_main_v3 (F := Ideal) (m ((c : Thread nD τ).loc main_arg1)) :=
  (W4_of_ne m ρ c main_v3 (by decide)).trans (w3_v3 m ρ c)
theorem w4_v5 : W4 m ρ c (Proc.devRef .tc main_v5) = Cert.ReferenceIdeal.Read.val_main_v6 (F := Ideal) (m ((c : Thread nD τ).loc main_arg1)) :=
  (W4_of_ne m ρ c main_v5 (by decide)).trans (w3_v5 m ρ c)
theorem w4_v6 : W4 m ρ c (Proc.devRef .tc main_v6) = Cert.ReferenceIdeal.Read.val_main_v7 (F := Ideal) (m ((c : Thread nD τ).loc main_arg1)) :=
  (W4_of_ne m ρ c main_v6 (by decide)).trans (w3_v6 m ρ c)
theorem w4_v31 : W4 m ρ c (Proc.devRef .tc main_v31) = Cert.ReferenceIdeal.Read.val_main_v32 (F := Ideal) (m ((c : Thread nD τ).loc main_arg1)) :=
  (W4_of_ne m ρ c main_v31 (by decide)).trans (w3_v31 m ρ c)
theorem w4_arg2 : W4 m ρ c (Proc.devRef .tc main_arg2) = (m ((c : Thread nD τ).loc main_arg2)) :=
  (W4_of_ne m ρ c main_arg2 (by decide)).trans (w3_arg2 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)

/-! ## The first aggregation, and the bias row of the first layer -/
set_option maxHeartbeats 1000000 in
theorem w5_v45 : W5 m ρ c (Proc.devRef .tc main_v45) = Cert.ReferenceIdeal.Read.val_main_v45 (F := Ideal) (m ((c : Thread nD τ).loc main_arg0)) (m ((c : Thread nD τ).loc main_arg1)) (m ((c : Thread nD τ).loc main_arg3)) := by
  show StableHlo.after hostOps1 (W4 m ρ c) (Proc.devRef .tc main_v45) = _
  after_results_simp
  rw [w4_v32 m ρ c, w4_v5 m ρ c, w4_v6 m ρ c, w4_v31 m ρ c]
  rfl
set_option maxHeartbeats 1000000 in
theorem w5_v46 : W5 m ρ c (Proc.devRef .tc main_v46) = shapeCast S1x64 (m ((c : Thread nD τ).loc main_arg4)) shapeCasts_S64_S1x64 := by
  show StableHlo.after hostOps1 (W4 m ρ c) (Proc.devRef .tc main_v46) = _
  after_results_simp
  rw [w4_arg4 m ρ c]
  rfl
theorem w5_v1 : W5 m ρ c (Proc.devRef .tc main_v1) = Cert.ReferenceIdeal.Read.val_main_v1 (F := Ideal) (m ((c : Thread nD τ).loc main_arg1)) :=
  (by kept_through hostOps1 : W5 m ρ c (Proc.devRef .tc main_v1) = W4 m ρ c (Proc.devRef .tc main_v1)).trans (w4_v1 m ρ c)
theorem w5_v3 : W5 m ρ c (Proc.devRef .tc main_v3) = Cert.ReferenceIdeal.Read.val_main_v3 (F := Ideal) (m ((c : Thread nD τ).loc main_arg1)) :=
  (by kept_through hostOps1 : W5 m ρ c (Proc.devRef .tc main_v3) = W4 m ρ c (Proc.devRef .tc main_v3)).trans (w4_v3 m ρ c)
theorem w5_v5 : W5 m ρ c (Proc.devRef .tc main_v5) = Cert.ReferenceIdeal.Read.val_main_v6 (F := Ideal) (m ((c : Thread nD τ).loc main_arg1)) :=
  (by kept_through hostOps1 : W5 m ρ c (Proc.devRef .tc main_v5) = W4 m ρ c (Proc.devRef .tc main_v5)).trans (w4_v5 m ρ c)
theorem w5_v6 : W5 m ρ c (Proc.devRef .tc main_v6) = Cert.ReferenceIdeal.Read.val_main_v7 (F := Ideal) (m ((c : Thread nD τ).loc main_arg1)) :=
  (by kept_through hostOps1 : W5 m ρ c (Proc.devRef .tc main_v6) = W4 m ρ c (Proc.devRef .tc main_v6)).trans (w4_v6 m ρ c)
theorem w5_v31 : W5 m ρ c (Proc.devRef .tc main_v31) = Cert.ReferenceIdeal.Read.val_main_v32 (F := Ideal) (m ((c : Thread nD τ).loc main_arg1)) :=
  (by kept_through hostOps1 : W5 m ρ c (Proc.devRef .tc main_v31) = W4 m ρ c (Proc.devRef .tc main_v31)).trans (w4_v31 m ρ c)
theorem w5_arg2 : W5 m ρ c (Proc.devRef .tc main_arg2) = (m ((c : Thread nD τ).loc main_arg2)) :=
  (by kept_through hostOps1 : W5 m ρ c (Proc.devRef .tc main_arg2) = W4 m ρ c (Proc.devRef .tc main_arg2)).trans (w4_arg2 m ρ c)
theorem w5_arg5 : W5 m ρ c (Proc.devRef .tc main_arg5) = (m ((c : Thread nD τ).loc main_arg5)) :=
  (by kept_through hostOps1 : W5 m ρ c (Proc.devRef .tc main_arg5) = W4 m ρ c (Proc.devRef .tc main_arg5)).trans (w4_arg5 m ρ c)
theorem w5_arg6 : W5 m ρ c (Proc.devRef .tc main_arg6) = (m ((c : Thread nD τ).loc main_arg6)) :=
  (by kept_through hostOps1 : W5 m ρ c (Proc.devRef .tc main_arg6) = W4 m ρ c (Proc.devRef .tc main_arg6)).trans (w4_arg6 m ρ c)

/-! ## Region 1: the second product, of the rectified hidden layer -/
theorem w6_v47 : W6 m ρ c (Proc.devRef .tc main_v47) = Cert.ReferenceIdeal.Read.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ((final1 (V5 m ρ) c).trans ?_)
  rw [show V5 m ρ c main_v45 = _ from w5_v45 m ρ c, show V5 m ρ c main_v46 = _ from w5_v46 m ρ c,
    show V5 m ρ c main_arg5 = (m ((c : Thread nD τ).loc main_arg5)) from w5_arg5 m ρ c]
  exact (ref_mm1_val _ _ _ _ _).symm
theorem w6_v1 : W6 m ρ c (Proc.devRef .tc main_v1) = Cert.ReferenceIdeal.Read.val_main_v1 (F := Ideal) (m ((c : Thread nD τ).loc main_arg1)) :=
  (W6_of_ne m ρ c main_v1 (by decide)).trans (w5_v1 m ρ c)
theorem w6_v3 : W6 m ρ c (Proc.devRef .tc main_v3) = Cert.ReferenceIdeal.Read.val_main_v3 (F := Ideal) (m ((c : Thread nD τ).loc main_arg1)) :=
  (W6_of_ne m ρ c main_v3 (by decide)).trans (w5_v3 m ρ c)
theorem w6_v5 : W6 m ρ c (Proc.devRef .tc main_v5) = Cert.ReferenceIdeal.Read.val_main_v6 (F := Ideal) (m ((c : Thread nD τ).loc main_arg1)) :=
  (W6_of_ne m ρ c main_v5 (by decide)).trans (w5_v5 m ρ c)
theorem w6_v6 : W6 m ρ c (Proc.devRef .tc main_v6) = Cert.ReferenceIdeal.Read.val_main_v7 (F := Ideal) (m ((c : Thread nD τ).loc main_arg1)) :=
  (W6_of_ne m ρ c main_v6 (by decide)).trans (w5_v6 m ρ c)
theorem w6_v31 : W6 m ρ c (Proc.devRef .tc main_v31) = Cert.ReferenceIdeal.Read.val_main_v32 (F := Ideal) (m ((c : Thread nD τ).loc main_arg1)) :=
  (W6_of_ne m ρ c main_v31 (by decide)).trans (w5_v31 m ρ c)
theorem w6_arg2 : W6 m ρ c (Proc.devRef .tc main_arg2) = (m ((c : Thread nD τ).loc main_arg2)) :=
  (W6_of_ne m ρ c main_arg2 (by decide)).trans (w5_arg2 m ρ c)
theorem w6_arg6 : W6 m ρ c (Proc.devRef .tc main_arg6) = (m ((c : Thread nD τ).loc main_arg6)) :=
  (W6_of_ne m ρ c main_arg6 (by decide)).trans (w5_arg6 m ρ c)

/-! ## The second aggregation, and the bias row of the second layer

The reference builds the index arrays and the edge weights a second time for this layer, by the same operations of the
same edge list: the two copies are one term. -/
set_option maxHeartbeats 1000000 in
theorem w7_v60 : W7 m ρ c (Proc.devRef .tc main_v60) = Cert.ReferenceIdeal.Read.val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W6 m ρ c) (Proc.devRef .tc main_v60) = _
  after_results_simp
  rw [w6_v47 m ρ c, w6_v5 m ρ c, w6_v6 m ρ c, w6_v31 m ρ c]
  rfl
set_option maxHeartbeats 1000000 in
theorem w7_v61 : W7 m ρ c (Proc.devRef .tc main_v61) = shapeCast S1x40 (m ((c : Thread nD τ).loc main_arg6)) shapeCasts_S40_S1x40 := by
  show StableHlo.after hostOps2 (W6 m ρ c) (Proc.devRef .tc main_v61) = _
  after_results_simp
  rw [w6_arg6 m ρ c]
  rfl
theorem w7_v1 : W7 m ρ c (Proc.devRef .tc main_v1) = Cert.ReferenceIdeal.Read.val_main_v1 (F := Ideal) (m ((c : Thread nD τ).loc main_arg1)) :=
  (by kept_through hostOps2 : W7 m ρ c (Proc.devRef .tc main_v1) = W6 m ρ c (Proc.devRef .tc main_v1)).trans (w6_v1 m ρ c)
theorem w7_v3 : W7 m ρ c (Proc.devRef .tc main_v3) = Cert.ReferenceIdeal.Read.val_main_v3 (F := Ideal) (m ((c : Thread nD τ).loc main_arg1)) :=
  (by kept_through hostOps2 : W7 m ρ c (Proc.devRef .tc main_v3) = W6 m ρ c (Proc.devRef .tc main_v3)).trans (w6_v3 m ρ c)
theorem w7_arg2 : W7 m ρ c (Proc.devRef .tc main_arg2) = (m ((c : Thread nD τ).loc main_arg2)) :=
  (by kept_through hostOps2 : W7 m ρ c (Proc.devRef .tc main_arg2) = W6 m ρ c (Proc.devRef .tc main_arg2)).trans (w6_arg2 m ρ c)

end Cert.KernelIdeal.Hand

end
-- ==== Proof.RegionFinal.lean ====
import proofs.«142800_j58729382805607_2_alg».proof.Proof.Gen.KernelIdeal.Frame
import proofs.«142800_j58729382805607_2_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-! # The final region: bias, log-softmax, softmax and inverse row norm

The region adds the bias row to a `[50000, 40]` array of activations and writes back, in row blocks of 2000, the biased
activations, their row-wise log-softmax and softmax (both shifted by the row maximum taken from -∞), and the column of
inverse Euclidean row norms, the norm clamped below by a small ε. Here: each of the four arrays after the region as ONE
function of the region's two input arrays (`final2_2` … `final2_5`), and the reference's stages as the same functions of
its own biased activations (`ref_xo`, `ref_lsm`, `ref_sm`). No law of extended-real arithmetic is used beyond `0 + x = x` and
`max b (fold max b f) = fold max b f`: the two sides compute the same terms in the same order, row by row. -/

/-! ## The four results as functions of the region's two input arrays -/

/-- The biased activations: the input array plus the bias row. -/
def xo (a : S50000x40.Idx → EReal) (b : S1x40.Idx → EReal) : S50000x40.Idx → EReal :=
  fun i => a i + b (ix2 (0 : Fin 1) ⟨(i 1).val, (i 1).isLt⟩)

/-- A row's maximum, folded from -∞. -/
def rowMax (x : S50000x40.Idx → EReal) (r : Fin 50000) : EReal :=
  (Finset.univ : Finset (Fin 40)).fold max (Ideal.ofBits .f32 0xFF800000#32) (fun c => x (ix2 r c))

/-- The row-wise log-softmax. -/
def lsm (x : S50000x40.Idx → EReal) : S50000x40.Idx → EReal := fun i =>
  (x i - rowMax x ⟨(i 0).val, (i 0).isLt⟩)
    - Ideal.log (∑ c : Fin 40, Ideal.exp (x (ix2 (⟨(i 0).val, (i 0).isLt⟩ : Fin 50000) c) - rowMax x ⟨(i 0).val, (i 0).isLt⟩))

/-- The row-wise softmax. -/
def sm (x : S50000x40.Idx → EReal) : S50000x40.Idx → EReal := fun i =>
  Ideal.div (Ideal.exp (x i - rowMax x ⟨(i 0).val, (i 0).isLt⟩))
    (∑ c : Fin 40, Ideal.exp (x (ix2 (⟨(i 0).val, (i 0).isLt⟩ : Fin 50000) c) - rowMax x ⟨(i 0).val, (i 0).isLt⟩))

/-- The inverse of a row's Euclidean norm, the norm clamped below by ε. -/
def inv (x : S50000x40.Idx → EReal) : S50000x1.Idx → EReal := fun i =>
  Ideal.div (Ideal.ofBits .f32 0x3F800000#32)
    (max (Ideal.sqrt (∑ c : Fin 40, x (ix2 (⟨(i 0).val, (i 0).isLt⟩ : Fin 50000) c) * x (ix2 (⟨(i 0).val, (i 0).isLt⟩ : Fin 50000) c)))
      (Ideal.ofBits .f32 0x322BCC77#32))

/-! ## Layout operations of a keepdims column, read at an index -/

/-- An `[a]` vector cast to the column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's payloads at an index of the block -/

section Payloads

variable (x0 : Vec Ideal S2000x40 .f32) (x1 : Vec Ideal S1x40 .f32)

/-- The biased block: the input block plus the bias row. -/
theorem pay1_apply (p : Fin 2000) (q : Fin 40) :
    k2_pay1 x0 x1 (ix2 p q) = x0 (ix2 p q) + x1 (ix2 (0 : Fin 1) q) := by
  unfold k2_pay1
  simp only [shapeCast_self]
  exact congrArg (x0 (ix2 p q) + ·) (broadcastTo_1b_ab_apply x1 _ p q)

/-- A lane maximum of a block from -∞, at row `p`: the fold of `max` over the row. -/
theorem rowmax_blk (src : FVec Ideal S2000x40 .f32) (p : Fin 2000) :
    multiReduction (F := Ideal) .maximumf [1] S2000 src 0xFF800000#32 reduces_S2000x40_S2000 (.inl rfl) rfl (ix1 p)
      = (Finset.univ : Finset (Fin 40)).fold max (Ideal.ofBits .f32 0xFF800000#32) (fun c => src (ix2 p c)) := by
  refine (Ideal.multiReduction_maximumf_single src 0xFF800000#32 reduces_S2000x40_S2000 (.inl rfl) rfl (ix1 p)).trans ?_
  exact congrArg (fun f => (Finset.univ : Finset (Fin 40)).fold max (Ideal.ofBits .f32 0xFF800000#32) f)
    (funext fun c => congrArg src (funext fun a => Fin.ext (by match a with | ⟨0, _⟩ => rfl | ⟨1, _⟩ => rfl)))

/-- A lane sum of a block, at row `p`: the sum over the row. -/
theorem rowsum_blk (src : FVec Ideal S2000x40 .f32) (p : Fin 2000) :
    multiReduction (F := Ideal) .add [1] S2000 src 0x00000000#32 reduces_S2000x40_S2000 (.inl rfl) rfl (ix1 p)
      = ∑ c : Fin 40, src (ix2 p c) := by
  refine (Ideal.multiReduction_add_single src 0x00000000#32 reduces_S2000x40_S2000 (.inl rfl) rfl (ix1 p)).trans ?_
  exact Finset.sum_congr rfl fun c _ => congrArg src (funext fun a => Fin.ext (by match a with | ⟨0, _⟩ => rfl | ⟨1, _⟩ => rfl))

/-- A block's row maximum, folded from -∞. -/
def bMax (X : S2000x40.Idx → EReal) (p : Fin 2000) : EReal :=
  (Finset.univ : Finset (Fin 40)).fold max (Ideal.ofBits .f32 0xFF800000#32) (fun c => X (ix2 p c))

/-- The shifted block: each row less its maximum. -/
theorem pay2_apply (p : Fin 2000) (q : Fin 40) :
    k2_pay2 x0 x1 (ix2 p q) = k2_pay1 x0 x1 (ix2 p q) - bMax (k2_pay1 x0 x1) p := by
  unfold k2_pay2
  generalize k2_pay1 x0 x1 = X
  refine (subf_apply _ _ _).trans (congrArg (X (ix2 p q) - ·) ?_)
  refine (broadcastTo_a1_ab_apply _ _ p q).trans ?_
  refine (shapeCast_a_a1_apply _ _ p 0).trans ?_
  exact rowmax_blk X p

/-- The exponentials of the shifted block. -/
theorem pay3_apply (p : Fin 2000) (q : Fin 40) :
    k2_pay3 x0 x1 (ix2 p q) = Ideal.exp (k2_pay2 x0 x1 (ix2 p q)) := rfl

/-- The row sums of the exponentials, as a column. -/
theorem pay4_apply (p : Fin 2000) (u : Fin 1) :
    k2_pay4 x0 x1 (ix2 p u) = ∑ c : Fin 40, k2_pay3 x0 x1 (ix2 p c) := by
  unfold k2_pay4
  generalize k2_pay3 x0 x1 = X
  refine (shapeCast_a_a1_apply _ _ p u).trans ?_
  exact rowsum_blk X p

/-- The log-softmax block: the shifted block less the logarithm of its row sums of exponentials. -/
theorem pay5_apply (p : Fin 2000) (q : Fin 40) :
    k2_pay5 x0 x1 (ix2 p q) = k2_pay2 x0 x1 (ix2 p q) - Ideal.log (k2_pay4 x0 x1 (ix2 p (0 : Fin 1))) := by
  unfold k2_pay5
  generalize k2_pay2 x0 x1 = X
  generalize k2_pay4 x0 x1 = Y
  refine (subf_apply _ _ _).trans (congrArg (X (ix2 p q) - ·) ?_)
  exact broadcastTo_a1_ab_apply _ _ p q

/-- The softmax block: the exponentials over their row sums. -/
theorem pay6_apply (p : Fin 2000) (q : Fin 40) :
    k2_pay6 x0 x1 (ix2 p q) = Ideal.div (k2_pay3 x0 x1 (ix2 p q)) (k2_pay4 x0 x1 (ix2 p (0 : Fin 1))) := by
  unfold k2_pay6
  generalize k2_pay3 x0 x1 = X
  generalize k2_pay4 x0 x1 = Y
  refine (divf_apply _ _ _).trans (congrArg (Ideal.div (X (ix2 p q)) ·) ?_)
  exact broadcastTo_a1_ab_apply _ _ p q

/-- The inverse row norms of the biased block, the norm clamped below by ε, as a column. -/
theorem pay7_apply (p : Fin 2000) (u : Fin 1) :
    k2_pay7 x0 x1 (ix2 p u) = Ideal.div (Ideal.ofBits .f32 0x3F800000#32)
      (max (Ideal.sqrt (∑ c : Fin 40, k2_pay1 x0 x1 (ix2 p c) * k2_pay1 x0 x1 (ix2 p c))) (Ideal.ofBits .f32 0x322BCC77#32)) := by
  unfold k2_pay7
  generalize k2_pay1 x0 x1 = X
  refine (divf_apply _ _ _).trans (congrArg (Ideal.div (Ideal.ofBits .f32 0x3F800000#32) ·) ?_)
  refine (maximumf_apply _ _ _).trans (congrArg (max · (Ideal.ofBits .f32 0x322BCC77#32)) ?_)
  refine congrArg Ideal.sqrt ?_
  refine (shapeCast_a_a1_apply _ _ p u).trans ?_
  exact rowsum_blk (mulf X X) p

/-- The log-softmax payload in terms of the biased block alone. -/
theorem pay5_eq (p : Fin 2000) (q : Fin 40) :
    k2_pay5 x0 x1 (ix2 p q) = (k2_pay1 x0 x1 (ix2 p q) - bMax (k2_pay1 x0 x1) p)
      - Ideal.log (∑ c : Fin 40, Ideal.exp (k2_pay1 x0 x1 (ix2 p c) - bMax (k2_pay1 x0 x1) p)) := by
  simp only [pay5_apply, pay4_apply, pay3_apply, pay2_apply]

/-- The softmax payload in terms of the biased block alone. -/
theorem pay6_eq (p : Fin 2000) (q : Fin 40) :
    k2_pay6 x0 x1 (ix2 p q) = Ideal.div (Ideal.exp (k2_pay1 x0 x1 (ix2 p q) - bMax (k2_pay1 x0 x1) p))
      (∑ c : Fin 40, Ideal.exp (k2_pay1 x0 x1 (ix2 p c) - bMax (k2_pay1 x0 x1) p)) := by
  simp only [pay6_apply, pay4_apply, pay3_apply, pay2_apply]

end Payloads

/-! ## From a block's rows to the array's rows -/

section Transfer

variable (X : S2000x40.Idx → EReal) (Y : S50000x40.Idx → EReal) (ρ : Fin 2000 → Fin 50000)
  (hX : ∀ p q, X (ix2 p q) = Y (ix2 (ρ p) q))
include hX

/-- A block row's maximum is the array row's. -/
theorem bMax_eq (p : Fin 2000) : bMax X p = rowMax Y (ρ p) := by
  unfold bMax rowMax
  exact congrArg (fun f => (Finset.univ : Finset (Fin 40)).fold max (Ideal.ofBits .f32 0xFF800000#32) f) (funext fun c => hX p c)

/-- The log-softmax of a block row is the array row's. -/
theorem lsm_eq (p : Fin 2000) (q : Fin 40) :
    (X (ix2 p q) - bMax X p) - Ideal.log (∑ c : Fin 40, Ideal.exp (X (ix2 p c) - bMax X p)) = lsm Y (ix2 (ρ p) q) := by
  rw [bMax_eq X Y ρ hX p]
  simp only [hX]
  rfl

/-- The softmax of a block row is the array row's. -/
theorem sm_eq (p : Fin 2000) (q : Fin 40) :
    Ideal.div (Ideal.exp (X (ix2 p q) - bMax X p)) (∑ c : Fin 40, Ideal.exp (X (ix2 p c) - bMax X p)) = sm Y (ix2 (ρ p) q) := by
  rw [bMax_eq X Y ρ hX p]
  simp only [hX]
  rfl

/-- The inverse norm of a block row is the array row's. -/
theorem inv_eq (p : Fin 2000) (u : Fin 1) :
    Ideal.div (Ideal.ofBits .f32 0x3F800000#32)
      (max (Ideal.sqrt (∑ c : Fin 40, X (ix2 p c) * X (ix2 p c))) (Ideal.ofBits .f32 0x322BCC77#32)) = inv Y (ix2 (ρ p) u) := by
  simp only [hX]
  rfl

end Transfer

/-! ## The region: what each point writes back, and the arrays after the last point -/

section Region

variable (V : (c : Dev nD) → (b : Ref sig .tc) → Buf (Elt Ideal) ((c : Thread nD τ).loc b)) (c : Dev nD)

theorem hz2 : (![0, 0] : Fin 2 → Nat) = fun _ => 0 := funext fun a => by fin_cases a <;> rfl

theorem N25 : cfg2.N = 25 := N_2

/-- The printed index maps, decided over the grid: the row-blocked windows sit at block `(t, 0)`, the bias row at `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row `p` of point `t`'s block is row `2000 t + p` of the array. -/
def row (t : Fin cfg2.N) (p : Fin 2000) : Fin 50000 :=
  ⟨2000 * t.val + p.val, by have := t.isLt; have h25 := N25; have := p.isLt; omega⟩

/-- The input block at point `t` is rows `2000 t … 2000 t + 1999` of the input array. -/
theorem iblk0_apply (t : Fin cfg2.N) (p : Fin 2000) (q : Fin 40) :
    (iblk2 V c 0 t : Vec Ideal S2000x40 .f32) (ix2 p q) = (V c main_v60 : S50000x40.Idx → EReal) (ix2 (row t p) q) := by
  obtain ⟨e0, e1, -⟩ := idx_facts t
  unfold iblk2
  rw [View.read_apply]
  show (V c main_v60 : S50000x40.Idx → EReal) _ = _
  congr 1
  funext a
  apply Fin.ext
  match a with
  | ⟨0, _⟩ => show win2_0.index t (0 : Fin 2) * 2000 + 1 * p.val = 2000 * t.val + p.val; rw [e0]; omega
  | ⟨1, _⟩ => show win2_0.index t (1 : Fin 2) * 40 + 1 * q.val = q.val; rw [e1]; omega

/-- The bias window's block at every point is the bias row. -/
theorem iblk1_apply (t : Fin cfg2.N) (q : Fin 40) :
    (iblk2 V c 1 t : Vec Ideal S1x40 .f32) (ix2 (0 : Fin 1) q) = (V c main_v61 : S1x40.Idx → EReal) (ix2 (0 : Fin 1) q) := by
  obtain ⟨-, -, e0, e1, -⟩ := idx_facts t
  unfold iblk2
  rw [View.read_apply]
  show (V c main_v61 : S1x40.Idx → EReal) _ = _
  congr 1
  funext a
  apply Fin.ext
  match a with
  | ⟨0, _⟩ => show win2_1.index t (0 : Fin 2) * 1 + 1 * 0 = 0; rw [e0]
  | ⟨1, _⟩ => show win2_1.index t (1 : Fin 2) * 40 + 1 * q.val = q.val; rw [e1]; omega

/-- The biased block at point `t` is rows `2000 t …` of the biased array. -/
theorem blkX (t : Fin cfg2.N) (p : Fin 2000) (q : Fin 40) :
    k2_pay1 (iblk2 V c 0 t) (iblk2 V c 1 t) (ix2 p q) = xo (V c main_v60) (V c main_v61) (ix2 (row t p) q) :=
  (pay1_apply _ _ p q).trans (congrArg₂ (· + ·) (iblk0_apply V c t p q) (iblk1_apply V c t q))

/-- WHAT POINT `t` WRITES BACK to the first result: its block of the biased array. -/
theorem flushed2_eq (t : Fin cfg2.N) :
    (dat2 V c).flushed 2 t = ((cfg2.win 2).blk t).view.read (Elt Ideal) (xo (V c main_v60) (V c main_v61)) := by
  obtain ⟨-, -, -, -, e0, e1, -⟩ := idx_facts t
  show (cfg2.win 2).cut (grid2.coords t) ((dat2 V c).after 2 t) = _
  rw [after2_2]
  unfold out2_2
  rw [View.canon_unit_zero hz2]
  simp only [View.ld_unit_zero (S := S2000x40) hz2, View.ld_unit_zero (S := S1x40) hz2]
  funext j
  revert j
  show ∀ j : S2000x40.Idx, k2_pay1 (iblk2 V c 0 t) (iblk2 V c 1 t) j
    = xo (V c main_v60) (V c main_v61) (((cfg2.win 2).blk t).view.emb j)
  intro j
  obtain ⟨p, q, rfl⟩ : ∃ (p : Fin 2000) (q : Fin 40), j = ix2 p q := ⟨j 0, j 1, eq_ix2 j⟩
  refine (blkX V c t p q).trans (congrArg (xo (V c main_v60) (V c main_v61)) ?_)
  funext a
  apply Fin.ext
  match a with
  | ⟨0, _⟩ => show 2000 * t.val + p.val = win2_2.index t (0 : Fin 2) * 2000 + 1 * p.val; rw [e0]; omega
  | ⟨1, _⟩ => show q.val = win2_2.index t (1 : Fin 2) * 40 + 1 * q.val; rw [e1]; omega

/-- Every row of a `[50000, ·]` result is in the block of point `row / 2000`. -/
theorem cover2 (i : S50000x40.Idx) : ∃ t : Fin cfg2.N, (cfg2.win 2).flush t = true ∧ i ∈ ((cfg2.win 2).blk t).view.set := by
  have h0 : (i 0).val < 50000 := (i 0).isLt
  have h1 : (i 1).val < 40 := (i 1).isLt
  have h25 := N25
  obtain ⟨t, ht⟩ : ∃ t : Fin cfg2.N, t.val = (i 0).val / 2000 := ⟨⟨(i 0).val / 2000, by omega⟩, rfl⟩
  obtain ⟨-, -, -, -, e0, e1, -⟩ := idx_facts t
  refine ⟨t, flush2_2 t, ?_⟩
  show i ∈ ((View.whole main_v62_0).slice (win2_2.rect t)).set
  rw [View.set_slice_whole, Rect.mem_set_unit]
  intro a
  match a with
  | ⟨0, _⟩ =>
    show win2_2.index t (0 : Fin 2) * 2000 ≤ (i 0).val ∧ (i 0).val < win2_2.index t (0 : Fin 2) * 2000 + 2000
    rw [e0, ht]; omega
  | ⟨1, _⟩ =>
    show win2_2.index t (1 : Fin 2) * 40 ≤ (i 1).val ∧ (i 1).val < win2_2.index t (1 : Fin 2) * 40 + 40
    rw [e1]; omega

/-- THE FIRST RESULT after the region: the biased array. -/
theorem final2_2 : (dat2 (F := Ideal) V c).arrAt 2 cfg2.N = xo (V c main_v60) (V c main_v61) :=
  (dat2 V c).arrAt_eq_of_cover 2 (xo (V c main_v60) (V c main_v61)) (fun t _ => flushed2_eq V c t) (cover2)

/-- WHAT POINT `t` WRITES BACK to the second result: its block of the log-softmax of the biased array. -/
theorem flushed3_eq (t : Fin cfg2.N) :
    (dat2 V c).flushed 3 t = ((cfg2.win 3).blk t).view.read (Elt Ideal) (lsm (xo (V c main_v60) (V c main_v61))) := by
  obtain ⟨-, -, -, -, -, -, e0, e1, -⟩ := idx_facts t
  show (cfg2.win 3).cut (grid2.coords t) ((dat2 V c).after 3 t) = _
  rw [after2_3]
  unfold out2_3
  rw [View.canon_unit_zero hz2]
  simp only [View.ld_unit_zero (S := S2000x40) hz2, View.ld_unit_zero (S := S1x40) hz2]
  funext j
  revert j
  show ∀ j : S2000x40.Idx, k2_pay5 (iblk2 V c 0 t) (iblk2 V c 1 t) j
    = lsm (xo (V c main_v60) (V c main_v61)) (((cfg2.win 3).blk t).view.emb j)
  intro j
  obtain ⟨p, q, rfl⟩ : ∃ (p : Fin 2000) (q : Fin 40), j = ix2 p q := ⟨j 0, j 1, eq_ix2 j⟩
  refine (pay5_eq _ _ p q).trans ?_
  refine (lsm_eq _ (xo (V c main_v60) (V c main_v61)) (row t) (blkX V c t) p q).trans
    (congrArg (lsm (xo (V c main_v60) (V c main_v61))) ?_)
  funext a
  apply Fin.ext
  match a with
  | ⟨0, _⟩ => show 2000 * t.val + p.val = win2_3.index t (0 : Fin 2) * 2000 + 1 * p.val; rw [e0]; omega
  | ⟨1, _⟩ => show q.val = win2_3.index t (1 : Fin 2) * 40 + 1 * q.val; rw [e1]; omega

theorem cover3 (i : S50000x40.Idx) : ∃ t : Fin cfg2.N, (cfg2.win 3).flush t = true ∧ i ∈ ((cfg2.win 3).blk t).view.set := by
  have h0 : (i 0).val < 50000 := (i 0).isLt
  have h1 : (i 1).val < 40 := (i 1).isLt
  have h25 := N25
  obtain ⟨t, ht⟩ : ∃ t : Fin cfg2.N, t.val = (i 0).val / 2000 := ⟨⟨(i 0).val / 2000, by omega⟩, rfl⟩
  obtain ⟨-, -, -, -, -, -, e0, e1, -⟩ := idx_facts t
  refine ⟨t, flush2_3 t, ?_⟩
  show i ∈ ((View.whole main_v62_1).slice (win2_3.rect t)).set
  rw [View.set_slice_whole, Rect.mem_set_unit]
  intro a
  match a with
  | ⟨0, _⟩ =>
    show win2_3.index t (0 : Fin 2) * 2000 ≤ (i 0).val ∧ (i 0).val < win2_3.index t (0 : Fin 2) * 2000 + 2000
    rw [e0, ht]; omega
  | ⟨1, _⟩ =>
    show win2_3.index t (1 : Fin 2) * 40 ≤ (i 1).val ∧ (i 1).val < win2_3.index t (1 : Fin 2) * 40 + 40
    rw [e1]; omega

/-- THE SECOND RESULT after the region: the row-wise log-softmax of the biased array. -/
theorem final2_3 : (dat2 (F := Ideal) V c).arrAt 3 cfg2.N = lsm (xo (V c main_v60) (V c main_v61)) :=
  (dat2 V c).arrAt_eq_of_cover 3 (lsm (xo (V c main_v60) (V c main_v61))) (fun t _ => flushed3_eq V c t) cover3

/-- WHAT POINT `t` WRITES BACK to the third result: its block of the softmax of the biased array. -/
theorem flushed4_eq (t : Fin cfg2.N) :
    (dat2 V c).flushed 4 t = ((cfg2.win 4).blk t).view.read (Elt Ideal) (sm (xo (V c main_v60) (V c main_v61))) := by
  obtain ⟨-, -, -, -, -, -, -, -, e0, e1, -⟩ := idx_facts t
  show (cfg2.win 4).cut (grid2.coords t) ((dat2 V c).after 4 t) = _
  rw [after2_4]
  unfold out2_4
  rw [View.canon_unit_zero hz2]
  simp only [View.ld_unit_zero (S := S2000x40) hz2, View.ld_unit_zero (S := S1x40) hz2]
  funext j
  revert j
  show ∀ j : S2000x40.Idx, k2_pay6 (iblk2 V c 0 t) (iblk2 V c 1 t) j
    = sm (xo (V c main_v60) (V c main_v61)) (((cfg2.win 4).blk t).view.emb j)
  intro j
  obtain ⟨p, q, rfl⟩ : ∃ (p : Fin 2000) (q : Fin 40), j = ix2 p q := ⟨j 0, j 1, eq_ix2 j⟩
  refine (pay6_eq _ _ p q).trans ?_
  refine (sm_eq _ (xo (V c main_v60) (V c main_v61)) (row t) (blkX V c t) p q).trans
    (congrArg (sm (xo (V c main_v60) (V c main_v61))) ?_)
  funext a
  apply Fin.ext
  match a with
  | ⟨0, _⟩ => show 2000 * t.val + p.val = win2_4.index t (0 : Fin 2) * 2000 + 1 * p.val; rw [e0]; omega
  | ⟨1, _⟩ => show q.val = win2_4.index t (1 : Fin 2) * 40 + 1 * q.val; rw [e1]; omega

theorem cover4 (i : S50000x40.Idx) : ∃ t : Fin cfg2.N, (cfg2.win 4).flush t = true ∧ i ∈ ((cfg2.win 4).blk t).view.set := by
  have h0 : (i 0).val < 50000 := (i 0).isLt
  have h1 : (i 1).val < 40 := (i 1).isLt
  have h25 := N25
  obtain ⟨t, ht⟩ : ∃ t : Fin cfg2.N, t.val = (i 0).val / 2000 := ⟨⟨(i 0).val / 2000, by omega⟩, rfl⟩
  obtain ⟨-, -, -, -, -, -, -, -, e0, e1, -⟩ := idx_facts t
  refine ⟨t, flush2_4 t, ?_⟩
  show i ∈ ((View.whole main_v62_2).slice (win2_4.rect t)).set
  rw [View.set_slice_whole, Rect.mem_set_unit]
  intro a
  match a with
  | ⟨0, _⟩ =>
    show win2_4.index t (0 : Fin 2) * 2000 ≤ (i 0).val ∧ (i 0).val < win2_4.index t (0 : Fin 2) * 2000 + 2000
    rw [e0, ht]; omega
  | ⟨1, _⟩ =>
    show win2_4.index t (1 : Fin 2) * 40 ≤ (i 1).val ∧ (i 1).val < win2_4.index t (1 : Fin 2) * 40 + 40
    rw [e1]; omega

/-- THE THIRD RESULT after the region: the row-wise softmax of the biased array. -/
theorem final2_4 : (dat2 (F := Ideal) V c).arrAt 4 cfg2.N = sm (xo (V c main_v60) (V c main_v61)) :=
  (dat2 V c).arrAt_eq_of_cover 4 (sm (xo (V c main_v60) (V c main_v61))) (fun t _ => flushed4_eq V c t) cover4

/-- WHAT POINT `t` WRITES BACK to the fourth result: its block of the column of inverse row norms. -/
theorem flushed5_eq (t : Fin cfg2.N) :
    (dat2 V c).flushed 5 t = ((cfg2.win 5).blk t).view.read (Elt Ideal) (inv (xo (V c main_v60) (V c main_v61))) := by
  obtain ⟨-, -, -, -, -, -, -, -, -, -, e0, e1⟩ := idx_facts t
  show (cfg2.win 5).cut (grid2.coords t) ((dat2 V c).after 5 t) = _
  rw [after2_5]
  unfold out2_5
  rw [View.canon_unit_zero hz2]
  simp only [View.ld_unit_zero (S := S2000x40) hz2, View.ld_unit_zero (S := S1x40) hz2]
  funext j
  revert j
  show ∀ j : S2000x1.Idx, k2_pay7 (iblk2 V c 0 t) (iblk2 V c 1 t) j
    = inv (xo (V c main_v60) (V c main_v61)) (((cfg2.win 5).blk t).view.emb j)
  intro j
  obtain ⟨p, u, rfl⟩ : ∃ (p : Fin 2000) (u : Fin 1), j = ix2 p u := ⟨j 0, j 1, eq_ix2 j⟩
  refine (pay7_apply _ _ p u).trans ?_
  refine (inv_eq _ (xo (V c main_v60) (V c main_v61)) (row t) (blkX V c t) p u).trans
    (congrArg (inv (xo (V c main_v60) (V c main_v61))) ?_)
  funext a
  apply Fin.ext
  match a with
  | ⟨0, _⟩ => show 2000 * t.val + p.val = win2_5.index t (0 : Fin 2) * 2000 + 1 * p.val; rw [e0]; omega
  | ⟨1, _⟩ => show u.val = win2_5.index t (1 : Fin 2) * 1 + 1 * u.val; rw [e1]; omega

theorem cover5 (i : S50000x1.Idx) : ∃ t : Fin cfg2.N, (cfg2.win 5).flush t = true ∧ i ∈ ((cfg2.win 5).blk t).view.set := by
  have h0 : (i 0).val < 50000 := (i 0).isLt
  have h1 : (i 1).val < 1 := (i 1).isLt
  have h25 := N25
  obtain ⟨t, ht⟩ : ∃ t : Fin cfg2.N, t.val = (i 0).val / 2000 := ⟨⟨(i 0).val / 2000, by omega⟩, rfl⟩
  obtain ⟨-, -, -, -, -, -, -, -, -, -, e0, e1⟩ := idx_facts t
  refine ⟨t, flush2_5 t, ?_⟩
  show i ∈ ((View.whole main_v62_3).slice (win2_5.rect t)).set
  rw [View.set_slice_whole, Rect.mem_set_unit]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 1 ≤ (i 1).val ∧ (i 1).val < win2_5.index t (1 : Fin 2) * 1 + 1
    rw [e1]; omega

/-- THE FOURTH RESULT after the region: the column of inverse row norms of the biased array. -/
theorem final2_5 : (dat2 (F := Ideal) V c).arrAt 5 cfg2.N = inv (xo (V c main_v60) (V c main_v61)) :=
  (dat2 V c).arrAt_eq_of_cover 5 (inv (xo (V c main_v60) (V c main_v61))) (fun t _ => flushed5_eq V c t) cover5

end Region

/-! ## The reference's row reductions as the same functions -/

/-- The host's maximum-reduce over the columns, from an initial value that is -∞'s pattern, is the row maximum. -/
theorem hostmax_row {u : Shape} (y : S50000x40.Idx → EReal) (init : u.Idx → EReal) (h' : S50000x40.ReducesTo [1] S50000) (hu : 0 < u.numel)
    (hinit : init (Shape.Idx.first hu) = Ideal.ofBits .f32 0xFF800000#32) (j : S50000.Idx) :
    Host.reduce (FloatOps.maximumf (F := Ideal) (φ := .f32)) y init h' hu j = rowMax y ⟨(j 0).val, (j 0).isLt⟩ := by
  rw [Host.reduce_eq_fold_single _ y init h' (by decide) hu j, hinit]
  exact congrArg (fun f => (Finset.univ : Finset (Fin 40)).fold max (Ideal.ofBits .f32 0xFF800000#32) f)
    (funext fun c => congrArg y (funext fun a => Fin.ext (by match a with | ⟨0, _⟩ => rfl | ⟨1, _⟩ => rfl)))

/-- The maximum with the fold's own starting value changes nothing. -/
theorem max_rowMax (y : S50000x40.Idx → EReal) (r : Fin 50000) :
    max (Ideal.ofBits .f32 0xFF800000#32) (rowMax y r) = rowMax y r :=
  max_eq_right ((Finset.le_fold_max _).mpr (Or.inl le_rfl))

section Reference

variable (x0 : S50000x256.Idx → EReal) (x1 : S2x1600000.Idx → BitVec 32) (x3 : S256x64.Idx → EReal) (x4 : S64.Idx → EReal) (x5 : S64x40.Idx → EReal) (x6 : S40.Idx → EReal)

/-- The reference's biased activations are the same function of the scattered sums and the bias. -/
theorem ref_xo : Cert.ReferenceIdeal.Read.val_main_v94 (F := Ideal) x0 x1 x3 x4 x5 x6
    = xo (Cert.ReferenceIdeal.Read.val_main_v91 (F := Ideal) x0 x1 x3 x4 x5) (shapeCast S1x40 x6 shapeCasts_S40_S1x40) := by
  funext i
  rw [Cert.ReferenceIdeal.Read.val_main_v94_apply, Cert.ReferenceIdeal.Read.val_main_v93_apply, Cert.ReferenceIdeal.Read.val_main_v92_apply]
  generalize Cert.ReferenceIdeal.Read.val_main_v91 (F := Ideal) x0 x1 x3 x4 x5 = y
  show y i + x6 _ = y i + shapeCast S1x40 x6 shapeCasts_S40_S1x40 (ix2 (0 : Fin 1) ⟨(i 1).val, (i 1).isLt⟩)
  refine congrArg (y i + ·) ?_
  refine Eq.trans ?_ (shapeCast_a_1a_apply x6 shapeCasts_S40_S1x40 (0 : Fin 1) ⟨(i 1).val, (i 1).isLt⟩).symm
  exact congrArg x6 (funext fun a => Fin.ext (by match a with | ⟨0, _⟩ => rfl))

/-- The reference's shifted activations (inside its log-softmax): each row less its maximum. -/
theorem ref_shift (i : S50000x40.Idx) :
    Cert.ReferenceIdeal.Read.val_main_call4_v5 (F := Ideal) x0 x1 x3 x4 x5 x6 i
      = Cert.ReferenceIdeal.Read.val_main_v94 (F := Ideal) x0 x1 x3 x4 x5 x6 i - rowMax (Cert.ReferenceIdeal.Read.val_main_v94 (F := Ideal) x0 x1 x3 x4 x5 x6) ⟨(i 0).val, (i 0).isLt⟩ := by
  rw [Cert.ReferenceIdeal.Read.val_main_call4_v5_apply, Cert.ReferenceIdeal.Read.val_main_call4_v4_apply, Cert.ReferenceIdeal.Read.val_main_call4_v3_apply,
    Cert.ReferenceIdeal.Read.val_main_call4_v2_apply, Cert.ReferenceIdeal.Read.val_main_call4_v1_apply, Cert.ReferenceIdeal.Read.val_main_call4_cst_0_apply]
  unfold Cert.ReferenceIdeal.Read.val_main_call4_v0
  generalize Cert.ReferenceIdeal.Read.val_main_v94 (F := Ideal) x0 x1 x3 x4 x5 x6 = y
  rw [hostmax_row y (Cert.ReferenceIdeal.Read.val_main_call4_cst (F := Ideal)) Cert.ReferenceIdeal.Gen.reducesTo_S50000x40_S50000_d1 Cert.ReferenceIdeal.Gen.h_S_ rfl]
  exact congrArg (y i - ·) (max_rowMax y _)

/-- Their exponentials. -/
theorem ref_exp (i : S50000x40.Idx) :
    Cert.ReferenceIdeal.Read.val_main_call4_v6 (F := Ideal) x0 x1 x3 x4 x5 x6 i
      = Ideal.exp (Cert.ReferenceIdeal.Read.val_main_v94 (F := Ideal) x0 x1 x3 x4 x5 x6 i - rowMax (Cert.ReferenceIdeal.Read.val_main_v94 (F := Ideal) x0 x1 x3 x4 x5 x6) ⟨(i 0).val, (i 0).isLt⟩) := by
  rw [Cert.ReferenceIdeal.Read.val_main_call4_v6_apply, Ideal.hostUnary_exp_def, ref_shift]

/-- The row sums of those exponentials. -/
theorem ref_sumexp (j : S50000.Idx) :
    Cert.ReferenceIdeal.Read.val_main_call4_v7 (F := Ideal) x0 x1 x3 x4 x5 x6 j
      = ∑ c : Fin 40, Ideal.exp (Cert.ReferenceIdeal.Read.val_main_v94 (F := Ideal) x0 x1 x3 x4 x5 x6 (ix2 (⟨(j 0).val, (j 0).isLt⟩ : Fin 50000) c)
          - rowMax (Cert.ReferenceIdeal.Read.val_main_v94 (F := Ideal) x0 x1 x3 x4 x5 x6) ⟨(j 0).val, (j 0).isLt⟩) := by
  rw [Cert.ReferenceIdeal.Read.val_main_call4_v7_apply, Cert.ReferenceIdeal.Read.val_main_call4_cst_1_apply]
  rw [Ideal.ofBits_def, Ideal.ofBits_zero_f32, zero_add]
  refine Finset.sum_congr rfl fun k _ => (ref_exp x0 x1 x3 x4 x5 x6 _).trans ?_
  generalize Cert.ReferenceIdeal.Read.val_main_v94 (F := Ideal) x0 x1 x3 x4 x5 x6 = y
  exact congrArg Ideal.exp (congrArg (· - rowMax y ⟨(j 0).val, (j 0).isLt⟩) (congrArg y (funext fun a => Fin.ext (by match a with | ⟨0, _⟩ => rfl | ⟨1, _⟩ => rfl))))

/-- The reference's log-softmax is the same function of its biased activations. -/
theorem ref_lsm : Cert.ReferenceIdeal.Read.val_main_v128 (F := Ideal) x0 x1 x3 x4 x5 x6 = lsm (Cert.ReferenceIdeal.Read.val_main_v94 (F := Ideal) x0 x1 x3 x4 x5 x6) := by
  funext i
  rw [Cert.ReferenceIdeal.Read.val_main_v128_apply, Cert.ReferenceIdeal.Read.val_main_call4_v10_apply, Cert.ReferenceIdeal.Read.val_main_call4_v9_apply,
    Cert.ReferenceIdeal.Read.val_main_call4_v8_apply, ref_sumexp, ref_shift, Ideal.subf_def, Ideal.hostUnary_log_def]
  generalize Cert.ReferenceIdeal.Read.val_main_v94 (F := Ideal) x0 x1 x3 x4 x5 x6 = y
  rfl

/-- The reference's second shifted activations (the softmax's own maximum): each row less its maximum. -/
theorem ref_shift' (i : S50000x40.Idx) :
    Cert.ReferenceIdeal.Read.val_main_v134 (F := Ideal) x0 x1 x3 x4 x5 x6 i
      = Cert.ReferenceIdeal.Read.val_main_v94 (F := Ideal) x0 x1 x3 x4 x5 x6 i - rowMax (Cert.ReferenceIdeal.Read.val_main_v94 (F := Ideal) x0 x1 x3 x4 x5 x6) ⟨(i 0).val, (i 0).isLt⟩ := by
  rw [Cert.ReferenceIdeal.Read.val_main_v134_apply, Cert.ReferenceIdeal.Read.val_main_v133_apply, Cert.ReferenceIdeal.Read.val_main_v132_apply,
    Cert.ReferenceIdeal.Read.val_main_v131_apply, Cert.ReferenceIdeal.Read.val_main_v130_apply, Cert.ReferenceIdeal.Read.val_main_cst_36_apply]
  unfold Cert.ReferenceIdeal.Read.val_main_v129
  generalize Cert.ReferenceIdeal.Read.val_main_v94 (F := Ideal) x0 x1 x3 x4 x5 x6 = y
  rw [hostmax_row y (Cert.ReferenceIdeal.Read.val_main_cst_35 (F := Ideal)) Cert.ReferenceIdeal.Gen.reducesTo_S50000x40_S50000_d1 Cert.ReferenceIdeal.Gen.h_S_ rfl]
  exact congrArg (y i - ·) (max_rowMax y _)

/-- Their exponentials. -/
theorem ref_exp' (i : S50000x40.Idx) :
    Cert.ReferenceIdeal.Read.val_main_v135 (F := Ideal) x0 x1 x3 x4 x5 x6 i
      = Ideal.exp (Cert.ReferenceIdeal.Read.val_main_v94 (F := Ideal) x0 x1 x3 x4 x5 x6 i - rowMax (Cert.ReferenceIdeal.Read.val_main_v94 (F := Ideal) x0 x1 x3 x4 x5 x6) ⟨(i 0).val, (i 0).isLt⟩) := by
  rw [Cert.ReferenceIdeal.Read.val_main_v135_apply, Ideal.hostUnary_exp_def, ref_shift']

/-- The row sums of those exponentials. -/
theorem ref_sumexp' (j : S50000.Idx) :
    Cert.ReferenceIdeal.Read.val_main_v136 (F := Ideal) x0 x1 x3 x4 x5 x6 j
      = ∑ c : Fin 40, Ideal.exp (Cert.ReferenceIdeal.Read.val_main_v94 (F := Ideal) x0 x1 x3 x4 x5 x6 (ix2 (⟨(j 0).val, (j 0).isLt⟩ : Fin 50000) c)
          - rowMax (Cert.ReferenceIdeal.Read.val_main_v94 (F := Ideal) x0 x1 x3 x4 x5 x6) ⟨(j 0).val, (j 0).isLt⟩) := by
  rw [Cert.ReferenceIdeal.Read.val_main_v136_apply, Cert.ReferenceIdeal.Read.val_main_cst_37_apply]
  rw [Ideal.ofBits_def, Ideal.ofBits_zero_f32, zero_add]
  refine Finset.sum_congr rfl fun k _ => (ref_exp' x0 x1 x3 x4 x5 x6 _).trans ?_
  generalize Cert.ReferenceIdeal.Read.val_main_v94 (F := Ideal) x0 x1 x3 x4 x5 x6 = y
  exact congrArg Ideal.exp (congrArg (· - rowMax y ⟨(j 0).val, (j 0).isLt⟩) (congrArg y (funext fun a => Fin.ext (by match a with | ⟨0, _⟩ => rfl | ⟨1, _⟩ => rfl))))

/-- The reference's softmax is the same function of its biased activations. -/
theorem ref_sm : Cert.ReferenceIdeal.Read.val_main_v139 (F := Ideal) x0 x1 x3 x4 x5 x6 = sm (Cert.ReferenceIdeal.Read.val_main_v94 (F := Ideal) x0 x1 x3 x4 x5 x6) := by
  funext i
  rw [Cert.ReferenceIdeal.Read.val_main_v139_apply, Cert.ReferenceIdeal.Read.val_main_v138_apply, Cert.ReferenceIdeal.Read.val_main_v137_apply, ref_sumexp', ref_exp', Ideal.hostDivf_def]
  generalize Cert.ReferenceIdeal.Read.val_main_v94 (F := Ideal) x0 x1 x3 x4 x5 x6 = y
  rfl

end Reference

end Cert.KernelIdeal.Hand

end
-- ==== Proof.ChainOut.lean ====
/-
  The third pipelined region: the output layer x_out = agg2 + b2, its log-softmax, its softmax, and the inverse row norms
  1/max(‖x_out[r]‖, ε), each as the fold of the kernel program's segments holds it after the region, identified with the
  reference's stage (the inverse norms have no stage of their own in the reference: they are a function of x_out's stage).
-/
import proofs.«142800_j58729382805607_2_alg».proof.Proof.ChainMid
import proofs.«142800_j58729382805607_2_alg».proof.Proof.RegionFinal

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ) (ρ : Dev nD → PrngReg) (c : Dev nD)

/-! ## Region 2: the output layer, its two softmaxes and the inverse row norms -/
theorem w8_v62_0 : W8 m ρ c (Proc.devRef .tc main_v62_0) = Cert.ReferenceIdeal.Read.val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 2).trans ((final2_2 (V7 m ρ) c).trans ?_)
  rw [show V7 m ρ c main_v60 = _ from w7_v60 m ρ c, show V7 m ρ c main_v61 = _ from w7_v61 m ρ c]
  exact (ref_xo _ _ _ _ _ _).symm
theorem w8_v62_1 : W8 m ρ c (Proc.devRef .tc main_v62_1) = Cert.ReferenceIdeal.Read.val_main_v128 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 3).trans ((final2_3 (V7 m ρ) c).trans ?_)
  rw [show V7 m ρ c main_v60 = _ from w7_v60 m ρ c, show V7 m ρ c main_v61 = _ from w7_v61 m ρ c, ← ref_xo]
  exact (ref_lsm _ _ _ _ _ _).symm
theorem w8_v62_2 : W8 m ρ c (Proc.devRef .tc main_v62_2) = Cert.ReferenceIdeal.Read.val_main_v139 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 4).trans ((final2_4 (V7 m ρ) c).trans ?_)
  rw [show V7 m ρ c main_v60 = _ from w7_v60 m ρ c, show V7 m ρ c main_v61 = _ from w7_v61 m ρ c, ← ref_xo]
  exact (ref_sm _ _ _ _ _ _).symm
theorem w8_v62_3 : W8 m ρ c (Proc.devRef .tc main_v62_3) = inv (Cert.ReferenceIdeal.Read.val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W8_arr m ρ c 5).trans ((final2_5 (V7 m ρ) c).trans ?_)
  rw [show V7 m ρ c main_v60 = _ from w7_v60 m ρ c, show V7 m ρ c main_v61 = _ from w7_v61 m ρ c, ← ref_xo]
theorem w8_v1 : W8 m ρ c (Proc.devRef .tc main_v1) = Cert.ReferenceIdeal.Read.val_main_v1 (F := Ideal) (m ((c : Thread nD τ).loc main_arg1)) :=
  (W8_of_ne m ρ c main_v1 (by decide)).trans (w7_v1 m ρ c)
theorem w8_v3 : W8 m ρ c (Proc.devRef .tc main_v3) = Cert.ReferenceIdeal.Read.val_main_v3 (F := Ideal) (m ((c : Thread nD τ).loc main_arg1)) :=
  (W8_of_ne m ρ c main_v3 (by decide)).trans (w7_v3 m ρ c)
theorem w8_arg2 : W8 m ρ c (Proc.devRef .tc main_arg2) = (m ((c : Thread nD τ).loc main_arg2)) :=
  (W8_of_ne m ρ c main_arg2 (by decide)).trans (w7_arg2 m ρ c)

end Cert.KernelIdeal.Hand

end
-- ==== Proof.LibCosineRows.lean ====
import Idealize.ShloMosaic.PureOps.Ideal

/-! Cosine similarity of two rows of extended reals: normalising each row and then taking the dot
product agrees with taking the dot product and dividing by the product of the two norms, at every
extended-real input (an infinite entry makes its row's norm `⊤`, whose reciprocal is `0`, and both
sides vanish; otherwise everything is real arithmetic). -/

noncomputable section

namespace Cert.LibCosineRows

open Idealize.ShloMosaic

/-- The pattern `0x322BCC77` (sign `0`, exponent field `100`, fraction `2870391`, about `1e-8`)
    denotes a positive real, namely `(2^23 + 2870391) · 2^(100 - 127 - 23)`. -/
theorem eps_pos_real : ∃ ε : ℝ, 0 < ε ∧ Ideal.ofBits .f32 0x322BCC77#32 = (ε : EReal) := by
  simp [Ideal.ofBits, Ideal.ieee, -EReal.coe_mul]

/-- The pattern `0x00000000` (`+0.0`) denotes `0`. -/
theorem ofBits_zero : Ideal.ofBits .f32 0x00000000#32 = 0 := by
  simp [Ideal.ofBits, Ideal.ieee]

/-- The pattern `0x3F800000` (sign `0`, exponent field `127`, fraction `0`) denotes `1`. -/
theorem ofBits_one : Ideal.ofBits .f32 0x3F800000#32 = 1 := by
  simp [Ideal.ofBits, Ideal.ieee, -EReal.coe_mul]; norm_num

variable {ι : Type} [Fintype ι]

/-- The square of an extended real is nonnegative: the square of either infinity is `⊤`, and the
    square of a real is a nonnegative real. -/
theorem ereal_mul_self_nonneg (x : EReal) : 0 ≤ x * x := by
  induction x with
  | bot => rw [EReal.bot_mul_bot]; exact le_top
  | coe r => rw [← EReal.coe_mul]; exact_mod_cast _root_.mul_self_nonneg r
  | top => rw [EReal.top_mul_top]; exact le_top

/-- A finite sum of squares of extended reals is `⊤` as soon as one entry is infinite: that entry's
    square is `⊤`, and every other term is nonnegative. -/
theorem sum_sq_eq_top (a : ι → EReal) (c : ι) (hc : a c = ⊤ ∨ a c = ⊥) :
    ∑ c, a c * a c = ⊤ := by
  have hterm : a c * a c = ⊤ := by
    rcases hc with h | h <;> rw [h]
    · exact EReal.top_mul_top
    · exact EReal.bot_mul_bot
  have hle : a c * a c ≤ ∑ c, a c * a c :=
    Finset.single_le_sum (f := fun c => a c * a c)
      (fun i _ => ereal_mul_self_nonneg (a i)) (Finset.mem_univ c)
  rw [hterm] at hle
  exact top_le_iff.mp hle

/-- The embedding of the reals into the extended reals commutes with finite sums. -/
theorem coe_sum (s : Finset ι) (f : ι → ℝ) :
    ((∑ c ∈ s, f c : ℝ) : EReal) = ∑ c ∈ s, (f c : EReal) := by
  classical
  induction s using Finset.induction_on with
  | empty => simp
  | insert i s hi ih => rw [Finset.sum_insert hi, Finset.sum_insert hi, EReal.coe_add, ih]

/-- The embedding of the reals into the extended reals commutes with `max` (it is monotone). -/
theorem coe_max (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The clamped norm `max (√(Σ aᵢ²)) ε` of a row of reals is a positive real. -/
theorem norm_real (a' : ι → ℝ) (ε : ℝ) (hε : 0 < ε) :
    ∃ r : ℝ, 0 < r ∧
      max (Ideal.sqrt (∑ c, (a' c : EReal) * (a' c : EReal))) (ε : EReal) = (r : EReal) := by
  refine ⟨max (Real.sqrt (∑ c, a' c * a' c)) ε, lt_max_of_lt_right hε, ?_⟩
  have hs : (∑ c, (a' c : EReal) * (a' c : EReal)) = ((∑ c, a' c * a' c : ℝ) : EReal) := by
    rw [coe_sum]; exact Finset.sum_congr rfl (fun c _ => (EReal.coe_mul _ _).symm)
  have hnn : ¬ (∑ c, a' c * a' c) < 0 :=
    not_lt.mpr (Finset.sum_nonneg (fun c _ => _root_.mul_self_nonneg (a' c)))
  rw [hs, Ideal.sqrt_coe, if_neg hnn, coe_max]

/-- The clamped norm of a row with an infinite entry is `⊤`. -/
theorem norm_top (a : ι → EReal) (ε : ℝ) (c : ι) (hc : a c = ⊤ ∨ a c = ⊥) :
    max (Ideal.sqrt (∑ c, a c * a c)) (ε : EReal) = ⊤ := by
  rw [sum_sq_eq_top a c hc, Ideal.sqrt_top, max_eq_left le_top]

/-- Dividing by `⊤` gives `0`, since `⊤⁻¹ = 0`. -/
theorem div_top (x : EReal) : Ideal.div x ⊤ = 0 := by
  rw [Ideal.div, if_neg EReal.top_ne_zero, EReal.inv_top, mul_zero]

/-- When the first norm is `⊤` and the second is positive, both sides vanish. -/
theorem rows_top_left (a b : ι → EReal) (nb : EReal) (hnb : 0 < nb) :
    (∑ c, (a c * Ideal.div 1 ⊤) * (b c * Ideal.div 1 nb))
      = Ideal.div (∑ c, a c * b c) (⊤ * nb) := by
  rw [EReal.top_mul_of_pos hnb, div_top (∑ c, a c * b c)]
  apply Finset.sum_eq_zero
  intro c _
  rw [div_top, mul_zero, zero_mul]

/-- When the second norm is `⊤` and the first is positive, both sides vanish. -/
theorem rows_top_right (a b : ι → EReal) (na : EReal) (hna : 0 < na) :
    (∑ c, (a c * Ideal.div 1 na) * (b c * Ideal.div 1 ⊤))
      = Ideal.div (∑ c, a c * b c) (na * ⊤) := by
  rw [EReal.mul_top_of_pos hna, div_top (∑ c, a c * b c)]
  apply Finset.sum_eq_zero
  intro c _
  rw [div_top, mul_zero, mul_zero]

/-- For real rows and positive real norms the identity is
    `Σ (aᵢ / na) (bᵢ / nb) = (Σ aᵢ bᵢ) / (na nb)` in the reals. -/
theorem rows_real (a' b' : ι → ℝ) (na nb : ℝ) (hna : 0 < na) (hnb : 0 < nb) :
    (∑ c, ((a' c : EReal) * Ideal.div 1 (na : EReal)) * ((b' c : EReal) * Ideal.div 1 (nb : EReal)))
      = Ideal.div (∑ c, (a' c : EReal) * (b' c : EReal)) ((na : EReal) * (nb : EReal)) := by
  have hnab : na * nb ≠ 0 := (mul_pos hna hnb).ne'
  rw [← EReal.coe_mul na nb, Ideal.div_coe hna.ne', Ideal.div_coe hnb.ne', Ideal.div_coe hnab]
  simp only [one_mul, ← EReal.coe_mul, ← coe_sum]
  congr 1
  rw [Finset.sum_mul]
  refine Finset.sum_congr rfl (fun c _ => ?_)
  field_simp

/-- The cosine identity for two rows of reals. -/
theorem cosine_rows_real (a' b' : ι → ℝ) (ε : ℝ) (hε : 0 < ε) :
    (∑ c, ((a' c : EReal) * Ideal.div 1 (max (Ideal.sqrt (∑ c, (a' c : EReal) * (a' c : EReal))) (ε : EReal))) *
          ((b' c : EReal) * Ideal.div 1 (max (Ideal.sqrt (∑ c, (b' c : EReal) * (b' c : EReal))) (ε : EReal))))
      = Ideal.div (∑ c, (a' c : EReal) * (b' c : EReal))
          (max (Ideal.sqrt (∑ c, (a' c : EReal) * (a' c : EReal))) (ε : EReal) *
            max (Ideal.sqrt (∑ c, (b' c : EReal) * (b' c : EReal))) (ε : EReal)) := by
  obtain ⟨ra, hra, hna⟩ := norm_real a' ε hε
  obtain ⟨rb, hrb, hnb⟩ := norm_real b' ε hε
  rw [hna, hnb]
  exact rows_real a' b' ra rb hra hrb

/-- A row none of whose entries is infinite is a row of reals. -/
theorem exists_real_row (a : ι → EReal) (ha : ∀ c, a c ≠ ⊤ ∧ a c ≠ ⊥) :
    ∃ a' : ι → ℝ, a = fun c => (a' c : EReal) :=
  ⟨fun c => (a c).toReal, funext fun c => (EReal.coe_toReal (ha c).1 (ha c).2).symm⟩

/-- A row that is not a row of reals has an infinite entry. -/
theorem exists_infinite (a : ι → EReal) (ha : ¬ ∀ c, a c ≠ ⊤ ∧ a c ≠ ⊥) :
    ∃ c, a c = ⊤ ∨ a c = ⊥ := by
  obtain ⟨c, hc⟩ := not_forall.mp ha
  refine ⟨c, ?_⟩
  by_contra h
  exact hc ⟨fun h1 => h (Or.inl h1), fun h2 => h (Or.inr h2)⟩

/-- Cosine similarity of two rows `a`, `b` of extended reals with norms clamped below by a positive
    real `ε`: normalising each row by its own clamped norm and then taking the dot product equals the
    dot product divided by the product of the two clamped norms. No finiteness is assumed: an infinite
    entry in a row makes that row's sum of squares, hence its norm, `⊤`; then `1 / ⊤ = 0` kills every
    term on the left, and on the right the product of the norms is `⊤` (the other norm is at least
    `ε > 0`), so the quotient is `0` as well. -/
theorem cosine_rows {ι : Type} [Fintype ι] (a b : ι → EReal) (ε : ℝ) (hε : 0 < ε) :
    (∑ c, (a c * Ideal.div 1 (max (Ideal.sqrt (∑ c, a c * a c)) (ε : EReal))) *
          (b c * Ideal.div 1 (max (Ideal.sqrt (∑ c, b c * b c)) (ε : EReal))))
      = Ideal.div (∑ c, a c * b c)
          (max (Ideal.sqrt (∑ c, a c * a c)) (ε : EReal) * max (Ideal.sqrt (∑ c, b c * b c)) (ε : EReal)) := by
  have hεE : (0 : EReal) < (ε : EReal) := EReal.coe_pos.mpr hε
  by_cases ha : ∀ c, a c ≠ ⊤ ∧ a c ≠ ⊥
  · by_cases hb : ∀ c, b c ≠ ⊤ ∧ b c ≠ ⊥
    · obtain ⟨a', rfl⟩ := exists_real_row a ha
      obtain ⟨b', rfl⟩ := exists_real_row b hb
      exact cosine_rows_real a' b' ε hε
    · obtain ⟨c, hc⟩ := exists_infinite b hb
      rw [norm_top b ε c hc]
      exact rows_top_right a b _ (lt_max_of_lt_right hεE)
  · obtain ⟨c, hc⟩ := exists_infinite a ha
    rw [norm_top a ε c hc]
    exact rows_top_left a b _ (lt_max_of_lt_right hεE)

end Cert.LibCosineRows

end
-- ==== Proof.TailCosine.lean ====
import proofs.«142800_j58729382805607_2_alg».proof.Proof.Gen.KernelIdeal.Launch
import proofs.«142800_j58729382805607_2_alg».proof.Proof.RefReadP
import proofs.«142800_j58729382805607_2_alg».proof.Proof.LibCosineRows
import Idealize.ShloMosaic.Lib.ValueIdx
import Idealize.ShloMosaic.Lib.Pipeline.Value
import Idealize.ShloMosaic.PureOps.Ideal.Laws

/-! The last stretch of the two programs: per edge `e`, one minus the cosine similarity of two gathered rows of a
`[50000, 40]` table. One program scales every row of the table by its inverse clamped norm, gathers the two rows
and takes their dot product; the other gathers the two rows, takes their dot product and divides by the product of
their clamped norms. Both read the table at the same two rows (a gather's row depends on the start indices only),
so per edge the two values are the two sides of the cosine identity for rows of extended reals. -/

set_option maxRecDepth 16384

noncomputable section

namespace Cert.KernelIdeal.Hand

open Idealize.ShloMosaic Idealize.ShloMosaic.ValueIdx Cert.KernelIdeal.Gen

section Row

variable {α : Type}

/-- The dimension numbers of a ROW gather: operand `[N, C]`, start indices `[E, 1]`, result `[E, C]`; axis 0 of the
    operand is collapsed and is the one axis in the start index map (slice size 1), axis 1 is an offset axis taken
    whole (slice size `C`). -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather read at `(e, c)`: the operand at row `idx[e, 0]` (read signed and clamped into `[0, N − 1]`) and
    the same column `c`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hst : (rowDims N E C wf).start (ix2 e c) idx 1 = 0 := by
      unfold GatherDims.start
      rw [dif_neg (fun h => absurd (List.mem_singleton.mp h) (show ¬((1 : Fin 2) = 0) from by decide))]
    rw [hst]
    have hmem : (1 : Fin 2) ∈ (rowDims N E C wf).sKept :=
      (GatherDims.mem_sKept _ _).mpr ⟨fun h => absurd (List.mem_singleton.mp h) (show ¬((1 : Fin 2) = 0) from by decide), List.not_mem_nil⟩
    unfold GatherDims.offCoord
    rw [dif_pos hmem]
    simp only [Nat.zero_add]
    rfl

end Row

/-! ## The two programs' gathers are row gathers -/

/-- The row of the table an edge reads: its start index, read signed and clamped into `[0, 50000 − 1]`. -/
def gRow (I : IVec S1600000x1 32) (e : Fin 1600000) : Fin 50000 :=
  ⟨min (I (ix2 e (0 : Fin 1))).toInt.toNat (50000 - 1), by omega⟩

/-- The first program's gather read at `(e, c)`: the table at the edge's row and the same column. -/
theorem kgather_apply {α : Type} (X : S50000x40.Idx → α) (I : IVec S1600000x1 32) (e : Fin 1600000) (c : Fin 40) :
    Host.gather Cert.KernelIdeal.gather_S50000x40_S1600000x1_S1600000x40_1_0_n_n_0_1_140 X I (ix2 e c)
      = X (ix2 (gRow I e) c) :=
  gather_row_apply (N := 50000) (E := 1600000) (C := 40) (by decide)
    Cert.KernelIdeal.Gen.gather_S50000x40_S1600000x1_S1600000x40_1_0_n_n_0_1_140_wf X I e c

/-- The second program's gather (the same dimension numbers) read at `(e, c)`. -/
theorem rgather_apply {α : Type} (X : S50000x40.Idx → α) (I : IVec S1600000x1 32) (e : Fin 1600000) (c : Fin 40) :
    Host.gather Cert.ReferenceIdeal.gather_S50000x40_S1600000x1_S1600000x40_1_0_n_n_0_1_140 X I (ix2 e c)
      = X (ix2 (gRow I e) c) :=
  gather_row_apply (N := 50000) (E := 1600000) (C := 40) (by decide)
    Cert.ReferenceIdeal.Gen.gather_S50000x40_S1600000x1_S1600000x40_1_0_n_n_0_1_140_wf X I e c

/-! ## The two tails as functions of the table and the start indices -/

/-- The first program's tail: every row of the table `X` scaled by its entry of `INVV` (reshaped to `[50000]`,
    broadcast back to `[50000, 1]` and along the columns), the two row gathers of the scaled table, their product
    summed over the columns from `0`, and one minus that. -/
def kTail (X : FVec Ideal S50000x40 .f32) (INVV : FVec Ideal S50000x1 .f32) (I1 I2 : IVec S1600000x1 32) :
    FVec Ideal S1600000 .f32 :=
  subf (broadcastInDim S1600000 ![] bcast_S_S1600000 (constant (F := Ideal) S_ .f32 0x3F800000#32))
    (Host.reduceAdd
      (mulf
        (Host.gather Cert.KernelIdeal.gather_S50000x40_S1600000x1_S1600000x40_1_0_n_n_0_1_140
          (mulf X (broadcastInDim S50000x40 ![0, 1] bcast_S50000x1_S50000x40_0_1
            (broadcastInDim S50000x1 ![0] bcast_S50000_S50000x1_0 (shapeCast S50000 INVV shapeCasts_S50000x1_S50000)))) I1)
        (Host.gather Cert.KernelIdeal.gather_S50000x40_S1600000x1_S1600000x40_1_0_n_n_0_1_140
          (mulf X (broadcastInDim S50000x40 ![0, 1] bcast_S50000x1_S50000x40_0_1
            (broadcastInDim S50000x1 ![0] bcast_S50000_S50000x1_0 (shapeCast S50000 INVV shapeCasts_S50000x1_S50000)))) I2))
      (constant (F := Ideal) S_ .f32 0x00000000#32) reducesTo_S1600000x40_S1600000_d1 h_S_)

/-- The second program's tail: the two row gathers of the table, each one's clamped norm (the square root of its sum of
    squares over the columns, at least the splat `ε`), the gathers' product summed over the columns, divided by the
    product of the two norms, and one minus that. -/
def rTail (X : FVec Ideal Cert.ReferenceIdeal.S50000x40 .f32) (I1 I2 : IVec Cert.ReferenceIdeal.S1600000x1 32) :
    FVec Ideal Cert.ReferenceIdeal.S1600000 .f32 :=
  subf
    (broadcastInDim Cert.ReferenceIdeal.S1600000 ![] Cert.ReferenceIdeal.Gen.bcast_S_S1600000
      (constant (F := Ideal) Cert.ReferenceIdeal.S_ .f32 0x3F800000#32))
    (Host.divf
      (Host.reduceAdd
        (mulf (Host.gather Cert.ReferenceIdeal.gather_S50000x40_S1600000x1_S1600000x40_1_0_n_n_0_1_140 X I1)
          (Host.gather Cert.ReferenceIdeal.gather_S50000x40_S1600000x1_S1600000x40_1_0_n_n_0_1_140 X I2))
        (constant (F := Ideal) Cert.ReferenceIdeal.S_ .f32 0x00000000#32)
        Cert.ReferenceIdeal.Gen.reducesTo_S1600000x40_S1600000_d1 Cert.ReferenceIdeal.Gen.h_S_)
      (mulf
        (maximumf
          (Host.sqrt
            (Host.reduceAdd
              (mulf (Host.gather Cert.ReferenceIdeal.gather_S50000x40_S1600000x1_S1600000x40_1_0_n_n_0_1_140 X I1)
                (Host.gather Cert.ReferenceIdeal.gather_S50000x40_S1600000x1_S1600000x40_1_0_n_n_0_1_140 X I1))
              (constant (F := Ideal) Cert.ReferenceIdeal.S_ .f32 0x00000000#32)
              Cert.ReferenceIdeal.Gen.reducesTo_S1600000x40_S1600000_d1 Cert.ReferenceIdeal.Gen.h_S_))
          (broadcastInDim Cert.ReferenceIdeal.S1600000 ![] Cert.ReferenceIdeal.Gen.bcast_S_S1600000
            (constant (F := Ideal) Cert.ReferenceIdeal.S_ .f32 0x322BCC77#32)))
        (maximumf
          (Host.sqrt
            (Host.reduceAdd
              (mulf (Host.gather Cert.ReferenceIdeal.gather_S50000x40_S1600000x1_S1600000x40_1_0_n_n_0_1_140 X I2)
                (Host.gather Cert.ReferenceIdeal.gather_S50000x40_S1600000x1_S1600000x40_1_0_n_n_0_1_140 X I2))
              (constant (F := Ideal) Cert.ReferenceIdeal.S_ .f32 0x00000000#32)
              Cert.ReferenceIdeal.Gen.reducesTo_S1600000x40_S1600000_d1 Cert.ReferenceIdeal.Gen.h_S_))
          (broadcastInDim Cert.ReferenceIdeal.S1600000 ![] Cert.ReferenceIdeal.Gen.bcast_S_S1600000
            (constant (F := Ideal) Cert.ReferenceIdeal.S_ .f32 0x322BCC77#32)))))

/-- The second program's last value is `rTail` of its table and of its two arrays of start indices: the operations
    between the gathers and the final subtraction, read off one by one. -/
theorem ref_tail (x0 : (⟨Cert.ReferenceIdeal.S50000x256, .f32⟩ : BufTy).Contents (Elt Ideal))
    (x1 : (⟨Cert.ReferenceIdeal.S2x1600000, .i32⟩ : BufTy).Contents (Elt Ideal))
    (x3 : (⟨Cert.ReferenceIdeal.S256x64, .f32⟩ : BufTy).Contents (Elt Ideal))
    (x4 : (⟨Cert.ReferenceIdeal.S64, .f32⟩ : BufTy).Contents (Elt Ideal))
    (x5 : (⟨Cert.ReferenceIdeal.S64x40, .f32⟩ : BufTy).Contents (Elt Ideal))
    (x6 : (⟨Cert.ReferenceIdeal.S40, .f32⟩ : BufTy).Contents (Elt Ideal)) :
    Cert.ReferenceIdeal.Read.val_main_v124 (F := Ideal) x0 x1 x3 x4 x5 x6
      = rTail (Cert.ReferenceIdeal.Read.val_main_v94 (F := Ideal) x0 x1 x3 x4 x5 x6)
          (Cert.ReferenceIdeal.Read.val_main_v100 (F := Ideal) x1) (Cert.ReferenceIdeal.Read.val_main_v107 (F := Ideal) x1) := by
  unfold Cert.ReferenceIdeal.Read.val_main_v124 Cert.ReferenceIdeal.Read.val_main_v123 Cert.ReferenceIdeal.Read.val_main_v122 Cert.ReferenceIdeal.Read.val_main_v121 Cert.ReferenceIdeal.Read.val_main_v120
    Cert.ReferenceIdeal.Read.val_main_v119 Cert.ReferenceIdeal.Read.val_main_v118 Cert.ReferenceIdeal.Read.val_main_v117 Cert.ReferenceIdeal.Read.val_main_v116 Cert.ReferenceIdeal.Read.val_main_v115
    Cert.ReferenceIdeal.Read.val_main_v114 Cert.ReferenceIdeal.Read.val_main_v113 Cert.ReferenceIdeal.Read.val_main_v112 Cert.ReferenceIdeal.Read.val_main_v111 Cert.ReferenceIdeal.Read.val_main_v110
    Cert.ReferenceIdeal.Read.val_main_v109 Cert.ReferenceIdeal.Read.val_main_v108 Cert.ReferenceIdeal.Read.val_main_v101
    Cert.ReferenceIdeal.Read.val_main_cst_26 Cert.ReferenceIdeal.Read.val_main_cst_27 Cert.ReferenceIdeal.Read.val_main_cst_28 Cert.ReferenceIdeal.Read.val_main_cst_29
    Cert.ReferenceIdeal.Read.val_main_cst_30 Cert.ReferenceIdeal.Read.val_main_cst_31 rTail
  rfl

/-! ## Reading the pieces at an index -/

/-- A splat of a scalar constant reads the extended real its pattern denotes, at every index. -/
theorem splat_apply (w : BitVec 32) (i : S1600000.Idx) :
    broadcastInDim S1600000 ![] bcast_S_S1600000 (constant (F := Ideal) S_ .f32 w) i = Ideal.ofBits .f32 w :=
  broadcastInDim_apply _ bcast_S_S1600000 (constant (F := Ideal) S_ .f32 w) i ix0 (fun a => a.elim0)

/-- The sum over the columns from a scalar initial value, read at an edge: the initial value plus the sum over the
    40 columns of the operand at `(e, k)`. -/
theorem reduce_apply (y : FVec Ideal S1600000x40 .f32) (init : FVec Ideal S_ .f32) (e : Fin 1600000) :
    Host.reduceAdd y init reducesTo_S1600000x40_S1600000_d1 h_S_ (ix1 e)
      = init (Shape.Idx.first h_S_) + ∑ k : Fin 40, y (ix2 e k) := by
  simp only [Host.reduceAdd, Ideal.hostReduceAdd_def]
  rw [Ideal.hostReduceAdd_single reducesTo_S1600000x40_S1600000_d1 (by decide)]
  refine congrArg (_ + ·) (Finset.sum_congr rfl fun k _ => ?_)
  exact congrArg y (funext fun a => Fin.ext (by match a with | ⟨0, _⟩ => rfl | ⟨1, _⟩ => rfl))

/-- The scaled table read at `(r, c)`: the table's entry times row `r`'s entry of the column of scales (the reshape
    to `[50000]` and the two broadcasts back read that column at `(r, 0)`). -/
theorem scaled_apply (X : FVec Ideal S50000x40 .f32) (INVV : FVec Ideal S50000x1 .f32) (r : Fin 50000) (c : Fin 40) :
    mulf X (broadcastInDim S50000x40 ![0, 1] bcast_S50000x1_S50000x40_0_1
      (broadcastInDim S50000x1 ![0] bcast_S50000_S50000x1_0 (shapeCast S50000 INVV shapeCasts_S50000x1_S50000))) (ix2 r c)
      = X (ix2 r c) * INVV (ix2 r (0 : Fin 1)) := by
  rw [mulf_apply]
  congr 1
  rw [broadcastInDim_apply ![0, 1] bcast_S50000x1_S50000x40_0_1 _ (ix2 r c) (ix2 r (0 : Fin 1)) (fun a => match a with
    | ⟨0, _⟩ => by show r.val = if (50000 : Nat) = 1 then 0 else r.val; rw [if_neg (by decide)]
    | ⟨1, _⟩ => by show (0 : Nat) = if (1 : Nat) = 1 then 0 else c.val; rw [if_pos rfl])]
  rw [broadcastInDim_apply ![0] bcast_S50000_S50000x1_0 _ (ix2 r (0 : Fin 1)) (ix1 r) (fun a => match a with
    | ⟨0, _⟩ => by show r.val = if (50000 : Nat) = 1 then 0 else r.val; rw [if_neg (by decide)])]
  exact shapeCast_apply INVV shapeCasts_S50000x1_S50000 (ix1 r) (ix2 r (0 : Fin 1))
    (by rewrite [Shape.rowMajor_val_two, Shape.rowMajor_val_one]; show r.val * 1 + 0 = r.val; omega)

/-- The first program's tail at edge `e`: one minus (zero plus) the dot product of the two gathered rows, each entry
    scaled by its row's scale. -/
theorem kTail_apply (X : FVec Ideal S50000x40 .f32) (INVV : FVec Ideal S50000x1 .f32) (I1 I2 : IVec S1600000x1 32)
    (e : Fin 1600000) :
    kTail X INVV I1 I2 (ix1 e)
      = Ideal.ofBits .f32 0x3F800000#32 - (Ideal.ofBits .f32 0x00000000#32
          + ∑ k : Fin 40, (X (ix2 (gRow I1 e) k) * INVV (ix2 (gRow I1 e) (0 : Fin 1)))
              * (X (ix2 (gRow I2 e) k) * INVV (ix2 (gRow I2 e) (0 : Fin 1)))) := by
  unfold kTail
  rw [subf_apply, splat_apply, reduce_apply]
  refine congrArg (_ - ·) (congrArg (_ + ·) (Finset.sum_congr rfl fun k _ => ?_))
  rw [mulf_apply, kgather_apply, kgather_apply, scaled_apply, scaled_apply]

/-- A host division at an index is the extended reals' division of the elements. -/
theorem hostDivf_apply {s : Shape} {φ : FTy} (a b : FVec Ideal s φ) (i : s.Idx) :
    Host.divf a b i = Ideal.div (a i) (b i) := rfl

/-- A host square root at an index is the extended reals' square root of the element. -/
theorem hostSqrt_apply {s : Shape} {φ : FTy} (a : FVec Ideal s φ) (i : s.Idx) :
    Host.sqrt a i = Ideal.sqrt (a i) := rfl

/-- The second program's tail at edge `e`: one minus the quotient of (zero plus) the dot product of the two gathered
    rows by the product of their clamped norms. -/
theorem rTail_apply (X : FVec Ideal S50000x40 .f32) (I1 I2 : IVec S1600000x1 32) (e : Fin 1600000) :
    rTail X I1 I2 (ix1 e)
      = Ideal.ofBits .f32 0x3F800000#32 - Ideal.div
          (Ideal.ofBits .f32 0x00000000#32 + ∑ k : Fin 40, X (ix2 (gRow I1 e) k) * X (ix2 (gRow I2 e) k))
          (max (Ideal.sqrt (Ideal.ofBits .f32 0x00000000#32
                + ∑ k : Fin 40, X (ix2 (gRow I1 e) k) * X (ix2 (gRow I1 e) k))) (Ideal.ofBits .f32 0x322BCC77#32)
            * max (Ideal.sqrt (Ideal.ofBits .f32 0x00000000#32
                + ∑ k : Fin 40, X (ix2 (gRow I2 e) k) * X (ix2 (gRow I2 e) k))) (Ideal.ofBits .f32 0x322BCC77#32)) := by
  unfold rTail
  rw [subf_apply, hostDivf_apply, mulf_apply, maximumf_apply, maximumf_apply, hostSqrt_apply, hostSqrt_apply]
  rw [splat_apply, splat_apply]
  rw [reduce_apply, reduce_apply, reduce_apply]
  simp only [mulf_apply, rgather_apply, constant_apply]

/-- THE TWO TAILS AGREE, on all extended reals, once the column of scales holds each row's inverse clamped norm: per
    edge both are one minus the cosine of the two gathered rows, the first with each row normalised before the dot
    product, the second with the dot product divided by the product of the norms. -/
theorem tail_eq (X : FVec Ideal S50000x40 .f32) (INVV : FVec Ideal S50000x1 .f32) (I1 I2 : IVec S1600000x1 32)
    (hinv : ∀ r : Fin 50000, INVV (ix2 r (0 : Fin 1))
      = Ideal.div (Ideal.ofBits .f32 0x3F800000#32)
          (max (Ideal.sqrt (∑ c : Fin 40, X (ix2 r c) * X (ix2 r c))) (Ideal.ofBits .f32 0x322BCC77#32))) :
    kTail X INVV I1 I2 = rTail X I1 I2 := by
  funext i
  obtain ⟨e, rfl⟩ : ∃ e, i = ix1 e := ⟨i 0, eq_ix1 i⟩
  rw [kTail_apply, rTail_apply, hinv, hinv, Cert.LibCosineRows.ofBits_zero, Cert.LibCosineRows.ofBits_one]
  obtain ⟨ε, hε, heq⟩ := Cert.LibCosineRows.eps_pos_real
  rw [heq]
  simp only [zero_add]
  exact congrArg (1 - ·)
    (Cert.LibCosineRows.cosine_rows (fun k => X (ix2 (gRow I1 e) k)) (fun k => X (ix2 (gRow I2 e) k)) ε hε)

end Cert.KernelIdeal.Hand

end
-- ==== Proof.ChainTail.lean ====
/-
  The last host operations of the kernel program: the cosine dissimilarity of each edge and the edge labels.

  The program scales every row of x_out by its inverse norm, gathers the scaled rows at src and at dst, and takes one minus
  the dot product of the two gathered rows.  The reference gathers the unscaled rows, and divides the dot product by the
  product of the two clamped norms.  With inv[r] = 1/max(‖x_out[r]‖, ε) these are the same extended real at every edge
  (the row law is proved once, program-free; the gather of a row depends on the index array only).  The edge labels are a
  comparison of the weights with 1/2, the same operations on both sides.
-/
import proofs.«142800_j58729382805607_2_alg».proof.Proof.ChainOut
import proofs.«142800_j58729382805607_2_alg».proof.Proof.TailCosine

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ) (ρ : Dev nD → PrngReg) (c : Dev nD)

/-! ## One minus the normalised dot product of the two gathered rows -/

/-- The inverse norm of row `r`, read at the one column of its [n, 1] array. -/
theorem inv_row (x : S50000x40.Idx → EReal) (r : Fin 50000) :
    inv x (ix2 r (0 : Fin 1)) = Ideal.div (Ideal.ofBits .f32 0x3F800000#32)
      (max (Ideal.sqrt (∑ c : Fin 40, x (ix2 r c) * x (ix2 r c))) (Ideal.ofBits .f32 0x322BCC77#32)) := rfl
set_option maxHeartbeats 2000000 in
theorem w9_v84 : W9 m ρ c (Proc.devRef .tc main_v84) = Cert.ReferenceIdeal.Read.val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps3 (W8 m ρ c) (Proc.devRef .tc main_v84) = _
  after_results_simp
  rw [w8_v62_0 m ρ c, w8_v62_3 m ρ c, w8_v1 m ρ c, w8_v3 m ρ c, ref_tail]
  refine Eq.trans ?_ (tail_eq (Cert.ReferenceIdeal.Read.val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (inv (Cert.ReferenceIdeal.Read.val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) (Cert.ReferenceIdeal.Read.val_main_v100 (F := Ideal) (m ((c : Thread nD τ).loc main_arg1))) (Cert.ReferenceIdeal.Read.val_main_v107 (F := Ideal) (m ((c : Thread nD τ).loc main_arg1))) (inv_row _))
  rfl
set_option maxHeartbeats 1000000 in
theorem w9_v86 : W9 m ρ c (Proc.devRef .tc main_v86) = Cert.ReferenceIdeal.Read.val_main_v126 (F := Ideal) (m ((c : Thread nD τ).loc main_arg2)) := by
  show StableHlo.after hostOps3 (W8 m ρ c) (Proc.devRef .tc main_v86) = _
  after_results_simp
  rw [w8_arg2 m ρ c]
  rfl
set_option maxHeartbeats 1000000 in
theorem w9_cst_20 : W9 m ρ c (Proc.devRef .tc main_cst_20) = Cert.ReferenceIdeal.Read.val_main_cst_33 (F := Ideal) := by
  show StableHlo.after hostOps3 (W8 m ρ c) (Proc.devRef .tc main_cst_20) = _
  after_results_simp
  rfl
set_option maxHeartbeats 1000000 in
theorem w9_cst_21 : W9 m ρ c (Proc.devRef .tc main_cst_21) = Cert.ReferenceIdeal.Read.val_main_cst_34 (F := Ideal) := by
  show StableHlo.after hostOps3 (W8 m ρ c) (Proc.devRef .tc main_cst_21) = _
  after_results_simp
  rfl
theorem w9_v62_0 : W9 m ρ c (Proc.devRef .tc main_v62_0) = Cert.ReferenceIdeal.Read.val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (by kept_through hostOps3 : W9 m ρ c (Proc.devRef .tc main_v62_0) = W8 m ρ c (Proc.devRef .tc main_v62_0)).trans (w8_v62_0 m ρ c)
theorem w9_v62_1 : W9 m ρ c (Proc.devRef .tc main_v62_1) = Cert.ReferenceIdeal.Read.val_main_v128 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (by kept_through hostOps3 : W9 m ρ c (Proc.devRef .tc main_v62_1) = W8 m ρ c (Proc.devRef .tc main_v62_1)).trans (w8_v62_1 m ρ c)
theorem w9_v62_2 : W9 m ρ c (Proc.devRef .tc main_v62_2) = Cert.ReferenceIdeal.Read.val_main_v139 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (by kept_through hostOps3 : W9 m ρ c (Proc.devRef .tc main_v62_2) = W8 m ρ c (Proc.devRef .tc main_v62_2)).trans (w8_v62_2 m ρ c)

/-! ## The edge labels, and the five results after the last stretch -/
/-- The labelling selection, over any contents of the three buffers it reads. -/
theorem where1_v87 {F : FTy → Type} [FloatOps F] (Wx : Valuation τ sig (Elt F)) :
    StableHlo.after hostOps3_1 Wx (Proc.devRef .tc main_v87)
      = select (Wx (Proc.devRef .tc main_v86)) (broadcastInDim S1600000 ![] bcast_S_S1600000 (Wx (Proc.devRef .tc main_cst_20)))
          (broadcastInDim S1600000 ![] bcast_S_S1600000 (Wx (Proc.devRef .tc main_cst_21))) := by
  after_results
  rfl
theorem w10_v87 : W10 m ρ c (Proc.devRef .tc main_v87) = Cert.ReferenceIdeal.Read.val_main_v127 (F := Ideal) (m ((c : Thread nD τ).loc main_arg2)) := by
  refine (where1_v87 (W9 m ρ c)).trans ?_
  rw [w9_v86 m ρ c, w9_cst_20 m ρ c, w9_cst_21 m ρ c]
  rfl
theorem w10_v62_0 : W10 m ρ c (Proc.devRef .tc main_v62_0) = Cert.ReferenceIdeal.Read.val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (by kept_through hostOps3_1 : W10 m ρ c (Proc.devRef .tc main_v62_0) = W9 m ρ c (Proc.devRef .tc main_v62_0)).trans (w9_v62_0 m ρ c)
theorem w10_v62_1 : W10 m ρ c (Proc.devRef .tc main_v62_1) = Cert.ReferenceIdeal.Read.val_main_v128 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (by kept_through hostOps3_1 : W10 m ρ c (Proc.devRef .tc main_v62_1) = W9 m ρ c (Proc.devRef .tc main_v62_1)).trans (w9_v62_1 m ρ c)
theorem w10_v62_2 : W10 m ρ c (Proc.devRef .tc main_v62_2) = Cert.ReferenceIdeal.Read.val_main_v139 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (by kept_through hostOps3_1 : W10 m ρ c (Proc.devRef .tc main_v62_2) = W9 m ρ c (Proc.devRef .tc main_v62_2)).trans (w9_v62_2 m ρ c)
theorem w10_v84 : W10 m ρ c (Proc.devRef .tc main_v84) = Cert.ReferenceIdeal.Read.val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (by kept_through hostOps3_1 : W10 m ρ c (Proc.devRef .tc main_v84) = W9 m ρ c (Proc.devRef .tc main_v84)).trans (w9_v84 m ρ c)

end Cert.KernelIdeal.Hand

end
-- ==== Proof.LibTypedRef.lean ====
/-
  Typed references of a host program's called functions: a round trip through the buffer is the identity.

  A called function's operations read and write their buffers through typed references
  (`StableHlo.TRef`): a value of the tensor's type is sent into the buffer along the reference's type equation
  (`toBuf`) and read back along it (`ofBuf`). When a run of such operations is read back as a composed term,
  every intermediate value appears as `x.ofBuf (x.toBuf v)`. That is `v`: `simp only [TRef.ofBuf_toBuf]` removes
  every such pair, for any program, before the composed term is compared with a cast-free one.
-/
import Idealize.ShloMosaic.Lib.StableHlo

namespace Idealize.ShloMosaic.StableHlo.TRef

/-- A value sent into a typed reference's buffer and read back is the value. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-- The other way round: contents read out of the buffer at the value's type and sent back are the contents. -/
theorem toBuf_ofBuf {sig : RefSig} {Val : EltTy → Type} {T : BufTy} (x : TRef sig T) (v : x.ref.ty.Contents Val) :
    x.toBuf (x.ofBuf v) = v := by
  obtain ⟨r, h, h2, h3⟩ := x
  subst h
  rfl

end Idealize.ShloMosaic.StableHlo.TRef
-- ==== Proof.RefEq.lean ====
/-
  The reference's five results, as its run states them, are the last stages of its operation-by-operation reading: each
  result's composed term of the argument arrays is, by unfolding, the stage that the reading module names for it.
-/
import proofs.«142800_j58729382805607_2_alg».proof.Proof.RefRunP
import proofs.«142800_j58729382805607_2_alg».proof.Proof.RefReadP

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- The term the Run module names `res_main_v128` is the stage. -/
theorem val_main_v128_eq (m : (ℓ : Loc nD τ sig) → Buf (Elt F) ℓ) (c : Dev nD) :
    Cert.ReferenceIdeal.Value.res_main_v128 m c = val_main_v128 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v128; rfl

/-- The term the Run module names `res_main_v94` is the stage. -/
theorem val_main_v94_eq (m : (ℓ : Loc nD τ sig) → Buf (Elt F) ℓ) (c : Dev nD) :
    Cert.ReferenceIdeal.Value.res_main_v94 m c = val_main_v94 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v94; rfl

/-- The term the Run module names `res_main_v124` is the stage. -/
theorem val_main_v124_eq (m : (ℓ : Loc nD τ sig) → Buf (Elt F) ℓ) (c : Dev nD) :
    Cert.ReferenceIdeal.Value.res_main_v124 m c = val_main_v124 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v124; rfl

/-- The term the Run module states for `main_v127` is the stage. -/
theorem val_main_v127_eq (x2 : (⟨S1600000, .f32⟩ : BufTy).Contents (Elt F)) :
    select (cmpf .ogt (x2) (broadcastInDim S1600000 ![] bcast_S_S1600000 (constant S_ .f32 0x3F000000#32))) (broadcastInDim S1600000 ![] bcast_S_S1600000 (constant S_ .f32 0x3F800000#32)) (broadcastInDim S1600000 ![] bcast_S_S1600000 (constant S_ .f32 0xBF800000#32))
      = val_main_v127 (F := F) x2 := rfl

/-- The term the Run module names `res_main_v139` is the stage. -/
theorem val_main_v139_eq (m : (ℓ : Loc nD τ sig) → Buf (Elt F) ℓ) (c : Dev nD) :
    Cert.ReferenceIdeal.Value.res_main_v139 m c = val_main_v139 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v139; rfl

end Cert.ReferenceIdeal.Read

end
-- ==== Proof.Claims.lean ====
/-
  The five claims.

  The three frames are the generated ones (the reference's is its run with the results dropped).  The idealization pass
  rewrote nothing, so `preserves` is trivial.  For `algebraic`: the idealized kernel's run leaves each result buffer at what
  the fold of its segments holds there, which the chain through the three regions identifies with the reference's stage of
  the same result, as a function of the argument arrays; the reference's run leaves its results at the same stages of its own
  arguments; the two memories agree on the arguments.  The only law used between the two programs beyond the regions' tiling is
  the row law behind the cosine: normalising two rows and then taking their dot product is dividing the dot product by the
  product of the two clamped norms, on all extended reals.  No finiteness of the inputs is needed.
-/
import proofs.«142800_j58729382805607_2_alg».proof.Defs
import proofs.«142800_j58729382805607_2_alg».proof.Proof.Gen.Kernel.Frame
import proofs.«142800_j58729382805607_2_alg».proof.Proof.Gen.KernelIdeal.Frame
import proofs.«142800_j58729382805607_2_alg».proof.Proof.Gen.Pre_finite_inputs
import proofs.«142800_j58729382805607_2_alg».proof.Proof.KRun
import proofs.«142800_j58729382805607_2_alg».proof.Proof.ChainTail
import proofs.«142800_j58729382805607_2_alg».proof.Proof.RefEq

set_option maxRecDepth 16384

noncomputable section

open Idealize.ShloMosaic Idealize.ShloMosaic.TcCoe Idealize.SL.Sem

namespace Cert.KernelIdeal.Hand

open Cert.KernelIdeal Cert.KernelIdeal.Gen

/-- The idealized kernel's run with every result stated as the reference's stage of the kernel's own argument arrays. -/
theorem kernel_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v62_1) = Cert.ReferenceIdeal.Read.val_main_v128 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v62_0) = Cert.ReferenceIdeal.Read.val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v84) = Cert.ReferenceIdeal.Read.val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v87) = Cert.ReferenceIdeal.Read.val_main_v127 (F := Ideal) (m ((c : Thread nD τ).loc main_arg2))
      ∧ r.2.mem ((c.tc : Thread nD τ).loc main_v62_2) = Cert.ReferenceIdeal.Read.val_main_v139 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c).1.trans (w10_v62_1 m ρ c), (h c).2.1.trans (w10_v62_0 m ρ c), (h c).2.2.1.trans (w10_v84 m ρ c),
     (h c).2.2.2.1.trans (w10_v87 m ρ c), (h c).2.2.2.2.1.trans (w10_v62_2 m ρ c), (h c).2.2.2.2.2⟩)
    (run_named m ρ)

end Cert.KernelIdeal.Hand

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The idealization pass rewrote no operation. -/
theorem preserves : Cert.preserves_Kernel_KernelIdeal := trivial

/-- Both idealized programs end with every result at the same stage of the (agreeing) argument arrays. -/
theorem algebraic : Cert.algebraic_KernelIdeal_ReferenceIdeal := by
  intro m ρ m' ρ' _ hagree
  refine ⟨_, _, _, _, _, Cert.KernelIdeal.Hand.kernel_values m ρ, ?_⟩
  refine (θ_run Cert.ReferenceIdeal.defs _ _).mono (fun r h c => ?_) (Cert.ReferenceIdeal.Value.run (F := Ideal) m' ρ')
  obtain ⟨h0, h1, h2, h3, h4, hargs⟩ := h c
  obtain ⟨a0, a1, a2, a3, a4, a5, a6⟩ := hagree c
  refine ⟨h0.trans ?_, h1.trans ?_, h2.trans ?_, h3.trans ?_, h4.trans ?_, hargs⟩
  · rw [Cert.ReferenceIdeal.Read.val_main_v128_eq, a0, a1, a3, a4, a5, a6]
  · rw [Cert.ReferenceIdeal.Read.val_main_v94_eq, a0, a1, a3, a4, a5, a6]
  · rw [Cert.ReferenceIdeal.Read.val_main_v124_eq, a0, a1, a3, a4, a5, a6]
  · rw [a2]; exact Cert.ReferenceIdeal.Read.val_main_v127_eq _
  · rw [Cert.ReferenceIdeal.Read.val_main_v139_eq, a0, a1, a3, a4, a5, a6]

end Cert.Proof.Claims

end
-- ==== Proof.lean ====
/-
  The certificate of a two-layer graph convolution with a softmax / cosine epilogue: three row-tiled kernels (x·W1;
  relu(agg1 + b1)·W2; the bias, log-softmax, softmax and inverse row norms of the output layer) among the gathers and
  scatter-adds of the message passing, against the plain reference.  At the exact extended reals a tiled product is the whole
  product, the kernels' row reductions are the reference's, the message passing is the same operations on both sides, and the
  cosine of two pre-normalised rows is the quotient the reference takes (Proof/LibCosineRows.lean).  The claims are assembled in
  Proof/Claims.lean.
-/
import proofs.«142800_j58729382805607_2_alg».proof.Defs
import proofs.«142800_j58729382805607_2_alg».proof.Proof.Gen.Kernel
import proofs.«142800_j58729382805607_2_alg».proof.Proof.Gen.Kernel.Skeleton
import proofs.«142800_j58729382805607_2_alg».proof.Proof.Gen.Kernel.Launch
import proofs.«142800_j58729382805607_2_alg».proof.Proof.Gen.Kernel.Points
import proofs.«142800_j58729382805607_2_alg».proof.Proof.Gen.Kernel.Frame
import proofs.«142800_j58729382805607_2_alg».proof.Proof.Gen.KernelIdeal
import proofs.«142800_j58729382805607_2_alg».proof.Proof.Gen.KernelIdeal.Skeleton
import proofs.«142800_j58729382805607_2_alg».proof.Proof.Gen.KernelIdeal.Launch
import proofs.«142800_j58729382805607_2_alg».proof.Proof.Gen.KernelIdeal.Points
import proofs.«142800_j58729382805607_2_alg».proof.Proof.Gen.KernelIdeal.Frame
import proofs.«142800_j58729382805607_2_alg».proof.Proof.Gen.ReferenceIdeal
import proofs.«142800_j58729382805607_2_alg».proof.Proof.Gen.Pre_finite_inputs
import proofs.«142800_j58729382805607_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
